-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x384 : Shape := ⟨2, ![50000, 384]⟩
abbrev S2x400000 : Shape := ⟨2, ![2, 400000]⟩
abbrev S4x384x384 : Shape := ⟨3, ![4, 384, 384]⟩
abbrev S4x384 : Shape := ⟨2, ![4, 384]⟩
abbrev S_ : Shape := ⟨0, ![]⟩

class Facts : Prop where
  bcast_S_S50000x384 : S_.BroadcastsInDim S50000x384 (![] : Fin 0 → Fin S50000x384.rank)
  reducesTo_S50000x384_S_d0_1 : S50000x384.ReducesTo [0, 1] S_
  h_S_ : 0 < S_.numel
  bcast_S_S4x384x384 : S_.BroadcastsInDim S4x384x384 (![] : Fin 0 → Fin S4x384x384.rank)
  reducesTo_S4x384x384_S_d0_1_2 : S4x384x384.ReducesTo [0, 1, 2] S_
  bcast_S_S4x384 : S_.BroadcastsInDim S4x384 (![] : Fin 0 → Fin S4x384.rank)
  reducesTo_S4x384_S_d0_1 : S4x384.ReducesTo [0, 1] S_

variable [Facts]

def fn_part1 {F : FTy → Type} [FloatOps F] (main_v13 : IVec S_ 1) (main_v16 : IVec S4x384 1) : IVec S_ 1 :=
  let main_c_5 : IVec S_ 1 := constantI S_ 1 1#1
  let main_v17 : IVec S_ 1 := (fun x v => Host.reduce IntOp.andi x v reducesTo_S4x384_S_d0_1 h_S_) main_v16 main_c_5
  let main_v18 : IVec S_ 1 := andi main_v13 main_v17
  main_v18

def fn {F : FTy → Type} [FloatOps F] (main_arg0 : FVec F S50000x384 .f32) (main_arg1 : IVec S2x400000 32) (main_arg2 : FVec F S4x384x384 .f32) (main_arg3 : FVec F S4x384x384 .f32) (main_arg4 : FVec F S4x384 .f32) : IVec S_ 1 :=
  let main_v0 : FVec F S50000x384 .f32 := Host.absf main_arg0
  let main_cst : FVec F S_ .f32 := constant S_ .f32 0x7F800000#32
  let main_v1 : FVec F S50000x384 .f32 := broadcastInDim S50000x384 ![] bcast_S_S50000x384 main_cst
  let main_v2 : IVec S50000x384 1 := cmpf .olt main_v0 main_v1
  let main_c : IVec S_ 1 := constantI S_ 1 1#1
  let main_v3 : IVec S_ 1 := (fun x v => Host.reduce IntOp.andi x v reducesTo_S50000x384_S_d0_1 h_S_) main_v2 main_c
  let main_v4 : FVec F S4x384x384 .f32 := Host.absf main_arg2
  let main_cst_0 : FVec F S_ .f32 := constant S_ .f32 0x7F800000#32
  let main_v5 : FVec F S4x384x384 .f32 := broadcastInDim S4x384x384 ![] bcast_S_S4x384x384 main_cst_0
  let main_v6 : IVec S4x384x384 1 := cmpf .olt main_v4 main_v5
  let main_c_1 : IVec S_ 1 := constantI S_ 1 1#1
  let main_v7 : IVec S_ 1 := (fun x v => Host.reduce IntOp.andi x v reducesTo_S4x384x384_S_d0_1_2 h_S_) main_v6 main_c_1
  let main_v8 : IVec S_ 1 := andi main_v3 main_v7
  let main_v9 : FVec F S4x384x384 .f32 := Host.absf main_arg3
  let main_cst_2 : FVec F S_ .f32 := constant S_ .f32 0x7F800000#32
  let main_v10 : FVec F S4x384x384 .f32 := broadcastInDim S4x384x384 ![] bcast_S_S4x384x384 main_cst_2
  let main_v11 : IVec S4x384x384 1 := cmpf .olt main_v9 main_v10
  let main_c_3 : IVec S_ 1 := constantI S_ 1 1#1
  let main_v12 : IVec S_ 1 := (fun x v => Host.reduce IntOp.andi x v reducesTo_S4x384x384_S_d0_1_2 h_S_) main_v11 main_c_3
  let main_v13 : IVec S_ 1 := andi main_v8 main_v12
  let main_v14 : FVec F S4x384 .f32 := Host.absf main_arg4
  let main_cst_4 : FVec F S_ .f32 := constant S_ .f32 0x7F800000#32
  let main_v15 : FVec F S4x384 .f32 := broadcastInDim S4x384 ![] bcast_S_S4x384 main_cst_4
  let main_v16 : IVec S4x384 1 := cmpf .olt main_v14 main_v15
  fn_part1 (F := F) main_v13 main_v16
-- ==== Kernel.lean ====
abbrev S50000x384 : Shape := ⟨2, ![50000, 384]⟩
abbrev S2x400000 : Shape := ⟨2, ![2, 400000]⟩
abbrev S4x384x384 : Shape := ⟨3, ![4, 384, 384]⟩
abbrev S4x384 : Shape := ⟨2, ![4, 384]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x384 : Shape := ⟨2, ![400000, 384]⟩
abbrev S1x384x384 : Shape := ⟨3, ![1, 384, 384]⟩
abbrev S384x384 : Shape := ⟨2, ![384, 384]⟩
abbrev S1x384 : Shape := ⟨2, ![1, 384]⟩
abbrev S384 : Shape := ⟨1, ![384]⟩
abbrev S5000x384 : Shape := ⟨2, ![5000, 384]⟩
abbrev S5000x1 : Shape := ⟨2, ![5000, 1]⟩

abbrev nBuf : Space → Nat
  | .hbm => 108
  | .vmem => 44
  | .smem => 0
  | _ => 0

abbrev bufTy : (tb : Table) → Fin (tcTables nBuf tb) → BufTy
  | .hbm, ⟨0, _⟩ => ⟨S50000x384, .f32⟩
  | .hbm, ⟨1, _⟩ => ⟨S2x400000, .i32⟩
  | .hbm, ⟨2, _⟩ => ⟨S4x384x384, .f32⟩
  | .hbm, ⟨3, _⟩ => ⟨S4x384x384, .f32⟩
  | .hbm, ⟨4, _⟩ => ⟨S4x384, .f32⟩
  | .hbm, ⟨5, _⟩ => ⟨S1x400000, .i32⟩
  | .hbm, ⟨6, _⟩ => ⟨S400000, .i32⟩
  | .hbm, ⟨7, _⟩ => ⟨S1x400000, .i32⟩
  | .hbm, ⟨8, _⟩ => ⟨S400000, .i32⟩
  | .hbm, ⟨9, _⟩ => ⟨S_, .f32⟩
  | .hbm, ⟨10, _⟩ => ⟨S400000, .f32⟩
  | .hbm, ⟨11, _⟩ => ⟨S_, .f32⟩
  | .hbm, ⟨12, _⟩ => ⟨S50000, .f32⟩
  | .hbm, ⟨13, _⟩ => ⟨S400000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S4x384x384, .bf16⟩
  | .hbm, ⟨23, _⟩ => ⟨S4x384x384, .bf16⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x384, .f32⟩
  | .hbm, ⟨33, _⟩ => ⟨S_, .f32⟩
  | .hbm, ⟨34, _⟩ => ⟨S50000x384, .f32⟩
  | .hbm, ⟨35, _⟩ => ⟨S400000x1, .i32⟩
  | .hbm, ⟨36, _⟩ => ⟨S50000x384, .f32⟩
  | .hbm, ⟨37, _⟩ => ⟨S1x384x384, .bf16⟩
  | .hbm, ⟨38, _⟩ => ⟨S384x384, .bf16⟩
  | .hbm, ⟨39, _⟩ => ⟨S1x384x384, .bf16⟩
  | .hbm, ⟨40, _⟩ => ⟨S384x384, .bf16⟩
  | .hbm, ⟨41, _⟩ => ⟨S1x384, .f32⟩
  | .hbm, ⟨42, _⟩ => ⟨S384, .f32⟩
  | .hbm, ⟨43, _⟩ => ⟨S1x384, .f32⟩
  | .hbm, ⟨44, _⟩ => ⟨S50000x384, .f32⟩
  | .hbm, ⟨45, _⟩ => ⟨S_, .i32⟩
  | .hbm, ⟨46, _⟩ => ⟨S400000, .i32⟩
  | .hbm, ⟨47, _⟩ => ⟨S400000, .i1⟩
  | .hbm, ⟨48, _⟩ => ⟨S_, .i32⟩
  | .hbm, ⟨49, _⟩ => ⟨S400000, .i32⟩
  | .hbm, ⟨50, _⟩ => ⟨S400000, .i32⟩
  | .hbm, ⟨51, _⟩ => ⟨S400000, .i32⟩
  | .hbm, ⟨52, _⟩ => ⟨S400000x1, .i32⟩
  | .hbm, ⟨53, _⟩ => ⟨S400000x384, .f32⟩
  | .hbm, ⟨54, _⟩ => ⟨S_, .f32⟩
  | .hbm, ⟨55, _⟩ => ⟨S50000x384, .f32⟩
  | .hbm, ⟨56, _⟩ => ⟨S400000x1, .i32⟩
  | .hbm, ⟨57, _⟩ => ⟨S50000x384, .f32⟩
  | .hbm, ⟨58, _⟩ => ⟨S1x384x384, .bf16⟩
  | .hbm, ⟨59, _⟩ => ⟨S384x384, .bf16⟩
  | .hbm, ⟨60, _⟩ => ⟨S1x384x384, .bf16⟩
  | .hbm, ⟨61, _⟩ => ⟨S384x384, .bf16⟩
  | .hbm, ⟨62, _⟩ => ⟨S1x384, .f32⟩
  | .hbm, ⟨63, _⟩ => ⟨S384, .f32⟩
  | .hbm, ⟨64, _⟩ => ⟨S1x384, .f32⟩
  | .hbm, ⟨65, _⟩ => ⟨S50000x384, .f32⟩
  | .hbm, ⟨66, _⟩ => ⟨S_, .i32⟩
  | .hbm, ⟨67, _⟩ => ⟨S400000, .i32⟩
  | .hbm, ⟨68, _⟩ => ⟨S400000, .i1⟩
  | .hbm, ⟨69, _⟩ => ⟨S_, .i32⟩
  | .hbm, ⟨70, _⟩ => ⟨S400000, .i32⟩
  | .hbm, ⟨71, _⟩ => ⟨S400000, .i32⟩
  | .hbm, ⟨72, _⟩ => ⟨S400000, .i32⟩
  | .hbm, ⟨73, _⟩ => ⟨S400000x1, .i32⟩
  | .hbm, ⟨74, _⟩ => ⟨S400000x384, .f32⟩
  | .hbm, ⟨75, _⟩ => ⟨S_, .f32⟩
  | .hbm, ⟨76, _⟩ => ⟨S50000x384, .f32⟩
  | .hbm, ⟨77, _⟩ => ⟨S400000x1, .i32⟩
  | .hbm, ⟨78, _⟩ => ⟨S50000x384, .f32⟩
  | .hbm, ⟨79, _⟩ => ⟨S1x384x384, .bf16⟩
  | .hbm, ⟨80, _⟩ => ⟨S384x384, .bf16⟩
  | .hbm, ⟨81, _⟩ => ⟨S1x384x384, .bf16⟩
  | .hbm, ⟨82, _⟩ => ⟨S384x384, .bf16⟩
  | .hbm, ⟨83, _⟩ => ⟨S1x384, .f32⟩
  | .hbm, ⟨84, _⟩ => ⟨S384, .f32⟩
  | .hbm, ⟨85, _⟩ => ⟨S1x384, .f32⟩
  | .hbm, ⟨86, _⟩ => ⟨S50000x384, .f32⟩
  | .hbm, ⟨87, _⟩ => ⟨S_, .i32⟩
  | .hbm, ⟨88, _⟩ => ⟨S400000, .i32⟩
  | .hbm, ⟨89, _⟩ => ⟨S400000, .i1⟩
  | .hbm, ⟨90, _⟩ => ⟨S_, .i32⟩
  | .hbm, ⟨91, _⟩ => ⟨S400000, .i32⟩
  | .hbm, ⟨92, _⟩ => ⟨S400000, .i32⟩
  | .hbm, ⟨93, _⟩ => ⟨S400000, .i32⟩
  | .hbm, ⟨94, _⟩ => ⟨S400000x1, .i32⟩
  | .hbm, ⟨95, _⟩ => ⟨S400000x384, .f32⟩
  | .hbm, ⟨96, _⟩ => ⟨S_, .f32⟩
  | .hbm, ⟨97, _⟩ => ⟨S50000x384, .f32⟩
  | .hbm, ⟨98, _⟩ => ⟨S400000x1, .i32⟩
  | .hbm, ⟨99, _⟩ => ⟨S50000x384, .f32⟩
  | .hbm, ⟨100, _⟩ => ⟨S1x384x384, .bf16⟩
  | .hbm, ⟨101, _⟩ => ⟨S384x384, .bf16⟩
  | .hbm, ⟨102, _⟩ => ⟨S1x384x384, .bf16⟩
  | .hbm, ⟨103, _⟩ => ⟨S384x384, .bf16⟩
  | .hbm, ⟨104, _⟩ => ⟨S1x384, .f32⟩
  | .hbm, ⟨105, _⟩ => ⟨S384, .f32⟩
  | .hbm, ⟨106, _⟩ => ⟨S1x384, .f32⟩
  | .hbm, ⟨107, _⟩ => ⟨S50000x384, .f32⟩
  | .local _ .vmem, ⟨0, _⟩ => ⟨S5000x384, .f32⟩
  | .local _ .vmem, ⟨1, _⟩ => ⟨S5000x384, .f32⟩
  | .local _ .vmem, ⟨2, _⟩ => ⟨S5000x384, .f32⟩
  | .local _ .vmem, ⟨3, _⟩ => ⟨S5000x384, .f32⟩
  | .local _ .vmem, ⟨4, _⟩ => ⟨S5000x1, .f32⟩
  | .local _ .vmem, ⟨5, _⟩ => ⟨S5000x1, .f32⟩
  | .local _ .vmem, ⟨6, _⟩ => ⟨S384x384, .bf16⟩
  | .local _ .vmem, ⟨7, _⟩ => ⟨S384x384, .bf16⟩
  | .local _ .vmem, ⟨8, _⟩ => ⟨S1x384, .f32⟩
  | .local _ .vmem, ⟨9, _⟩ => ⟨S5000x384, .f32⟩
  | .local _ .vmem, ⟨10, _⟩ => ⟨S5000x384, .f32⟩
  | .local _ .vmem, ⟨11, _⟩ => ⟨S5000x384, .f32⟩
  | .local _ .vmem, ⟨12, _⟩ => ⟨S5000x384, .f32⟩
  | .local _ .vmem, ⟨13, _⟩ => ⟨S5000x384, .f32⟩
  | .local _ .vmem, ⟨14, _⟩ => ⟨S5000x384, .f32⟩
  | .local _ .vmem, ⟨15, _⟩ => ⟨S5000x1, .f32⟩
  | .local _ .vmem, ⟨16, _⟩ => ⟨S5000x1, .f32⟩
  | .local _ .vmem, ⟨17, _⟩ => ⟨S384x384, .bf16⟩
  | .local _ .vmem, ⟨18, _⟩ => ⟨S384x384, .bf16⟩
  | .local _ .vmem, ⟨19, _⟩ => ⟨S1x384, .f32⟩
  | .local _ .vmem, ⟨20, _⟩ => ⟨S5000x384, .f32⟩
  | .local _ .vmem, ⟨21, _⟩ => ⟨S5000x384, .f32⟩
  | .local _ .vmem, ⟨22, _⟩ => ⟨S5000x384, .f32⟩
  | .local _ .vmem, ⟨23, _⟩ => ⟨S5000x384, .f32⟩
  | .local _ .vmem, ⟨24, _⟩ => ⟨S5000x384, .f32⟩
  | .local _ .vmem, ⟨25, _⟩ => ⟨S5000x384, .f32⟩
  | .local _ .vmem, ⟨26, _⟩ => ⟨S5000x1, .f32⟩
  | .local _ .vmem, ⟨27, _⟩ => ⟨S5000x1, .f32⟩
  | .local _ .vmem, ⟨28, _⟩ => ⟨S384x384, .bf16⟩
  | .local _ .vmem, ⟨29, _⟩ => ⟨S384x384, .bf16⟩
  | .local _ .vmem, ⟨30, _⟩ => ⟨S1x384, .f32⟩
  | .local _ .vmem, ⟨31, _⟩ => ⟨S5000x384, .f32⟩
  | .local _ .vmem, ⟨32, _⟩ => ⟨S5000x384, .f32⟩
  | .local _ .vmem, ⟨33, _⟩ => ⟨S5000x384, .f32⟩
  | .local _ .vmem, ⟨34, _⟩ => ⟨S5000x384, .f32⟩
  | .local _ .vmem, ⟨35, _⟩ => ⟨S5000x384, .f32⟩
  | .local _ .vmem, ⟨36, _⟩ => ⟨S5000x384, .f32⟩
  | .local _ .vmem, ⟨37, _⟩ => ⟨S5000x1, .f32⟩
  | .local _ .vmem, ⟨38, _⟩ => ⟨S5000x1, .f32⟩
  | .local _ .vmem, ⟨39, _⟩ => ⟨S384x384, .bf16⟩
  | .local _ .vmem, ⟨40, _⟩ => ⟨S384x384, .bf16⟩
  | .local _ .vmem, ⟨41, _⟩ => ⟨S1x384, .f32⟩
  | .local _ .vmem, ⟨42, _⟩ => ⟨S5000x384, .f32⟩
  | .local _ .vmem, ⟨43, _⟩ => ⟨S5000x384, .f32⟩
  | _, _ => ⟨S50000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_11 : Ref sig .tc := ⟨.hbm, 87, rfl⟩
abbrev main_v69 : Ref sig .tc := ⟨.hbm, 88, rfl⟩
abbrev main_v70 : Ref sig .tc := ⟨.hbm, 89, rfl⟩
abbrev main_c_12 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S384x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S384x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S384x384 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S384x384 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S384x384 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S384x384 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x384 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bitsLt_bf16_f32 : FTy.bits .bf16 < FTy.bits .f32
  bcast_S_S50000x384 : S_.BroadcastsInDim S50000x384 (![] : Fin 0 → Fin S50000x384.rank)
  slices_S4x384x384_S1x384x384_0_0_0 : S4x384x384.Slices ![0, 0, 0] S1x384x384
  shapeCasts_S1x384x384_S384x384 : S1x384x384.ShapeCasts S384x384
  slices_S4x384_S1x384_0_0 : S4x384.Slices ![0, 0] S1x384
  shapeCasts_S1x384_S384 : S1x384.ShapeCasts S384
  bcast_S384_S1x384_1 : S384.BroadcastsInDim S1x384 (![1] : Fin 1 → Fin S1x384.rank)
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x384 : S5000x1.Broadcasts S5000x384
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S5000x384 : S1x384.Broadcasts S5000x384
  slices_S4x384x384_S1x384x384_1_0_0 : S4x384x384.Slices ![1, 0, 0] S1x384x384
  slices_S4x384_S1x384_1_0 : S4x384.Slices ![1, 0] S1x384
  slices_S4x384x384_S1x384x384_2_0_0 : S4x384x384.Slices ![2, 0, 0] S1x384x384
  slices_S4x384_S1x384_2_0 : S4x384.Slices ![2, 0] S1x384
  slices_S4x384x384_S1x384x384_3_0_0 : S4x384x384.Slices ![3, 0, 0] S1x384x384
  slices_S4x384_S1x384_3_0 : S4x384.Slices ![3, 0] S1x384
  scatter_S50000_S400000x1_S400000_n_0_0_1_wf : ScatterDims.WF S50000 S400000x1 S400000 [] [0] [0] 1
  gather_S50000x384_S400000x1_S400000x384_1_0_n_n_0_1_1384_wf : GatherDims.WF S50000x384 S400000x1 S400000x384 [1] [0] [] [0] [] 1 ![1, 384]
  scatter_S50000x384_S400000x1_S400000x384_1_0_0_1_wf : ScatterDims.WF S50000x384 S400000x1 S400000x384 [1] [0] [0] 1
  dot_S5000x384_S384x384_S5000x384_1_0_0_1_n_n_wf : DotDims.WF S5000x384 S384x384 S5000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S50000x384.size a
  hwx0_0 : ∀ i : grid0.Coords, EltTy.bits .f32 = 32 ∨ (Rect.block (s := S50000x384) S5000x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x384.size a ≤ S50000x384.size a
  hwx0_1 : ∀ i : grid0.Coords, EltTy.bits .f32 = 32 ∨ (Rect.block (s := S50000x384) S5000x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .bf16 = 32 ∨ (Rect.block (s := S384x384) S384x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x384.size a ≤ S384x384.size a
  hwx0_4 : ∀ i : grid0.Coords, EltTy.bits .bf16 = 32 ∨ (Rect.block (s := S384x384) S384x384.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x384.size a ≤ S50000x384.size a
  hwx0_6 : ∀ i : grid0.Coords, EltTy.bits .f32 = 32 ∨ (Rect.block (s := S50000x384) S5000x384.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x384.size a ≤ S50000x384.size a
  hwx1_0 : ∀ i : grid1.Coords, EltTy.bits .f32 = 32 ∨ (Rect.block (s := S50000x384) S5000x384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x384.size a ≤ S50000x384.size a
  hwx1_1 : ∀ i : grid1.Coords, EltTy.bits .f32 = 32 ∨ (Rect.block (s := S50000x384) S5000x384.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x384.size a ≤ S384x384.size a
  hwx1_3 : ∀ i : grid1.Coords, EltTy.bits .bf16 = 32 ∨ (Rect.block (s := S384x384) S384x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S384x384.size a ≤ S384x384.size a
  hwx1_4 : ∀ i : grid1.Coords, EltTy.bits .bf16 = 32 ∨ (Rect.block (s := S384x384) S384x384.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x384.size a ≤ S50000x384.size a
  hwx1_6 : ∀ i : grid1.Coords, EltTy.bits .f32 = 32 ∨ (Rect.block (s := S50000x384) S5000x384.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x384.size a ≤ S50000x384.size a
  hwx2_0 : ∀ i : grid2.Coords, EltTy.bits .f32 = 32 ∨ (Rect.block (s := S50000x384) S5000x384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x384.size a ≤ S50000x384.size a
  hwx2_1 : ∀ i : grid2.Coords, EltTy.bits .f32 = 32 ∨ (Rect.block (s := S50000x384) S5000x384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x384.size a ≤ S384x384.size a
  hwx2_3 : ∀ i : grid2.Coords, EltTy.bits .bf16 = 32 ∨ (Rect.block (s := S384x384) S384x384.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S384x384.size a ≤ S384x384.size a
  hwx2_4 : ∀ i : grid2.Coords, EltTy.bits .bf16 = 32 ∨ (Rect.block (s := S384x384) S384x384.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x384.size a ≤ S50000x384.size a
  hwx2_6 : ∀ i : grid2.Coords, EltTy.bits .f32 = 32 ∨ (Rect.block (s := S50000x384) S5000x384.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x384.size a ≤ S50000x384.size a
  hwx3_0 : ∀ i : grid3.Coords, EltTy.bits .f32 = 32 ∨ (Rect.block (s := S50000x384) S5000x384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x384.size a ≤ S50000x384.size a
  hwx3_1 : ∀ i : grid3.Coords, EltTy.bits .f32 = 32 ∨ (Rect.block (s := S50000x384) S5000x384.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384x384.size a ≤ S384x384.size a
  hwx3_3 : ∀ i : grid3.Coords, EltTy.bits .bf16 = 32 ∨ (Rect.block (s := S384x384) S384x384.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S384x384.size a ≤ S384x384.size a
  hwx3_4 : ∀ i : grid3.Coords, EltTy.bits .bf16 = 32 ∨ (Rect.block (s := S384x384) S384x384.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x384.size a ≤ S1x384.size a
  hwx3_5 : ∀ i : grid3.Coords, EltTy.bits .f32 = 32 ∨ (Rect.block (s := S1x384) S1x384.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x384.size a ≤ S50000x384.size a
  hwx3_6 : ∀ i : grid3.Coords, EltTy.bits .f32 = 32 ∨ (Rect.block (s := S50000x384) S5000x384.size (cc3_transform_6 i) (hinb3_6 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x384_S400000x1_S400000x384_1_0_n_n_0_1_1384 : GatherDims S50000x384 S400000x1 S400000x384 where
  offsetDims := [1]
  collapsedSliceDims := [0]
  operandBatchingDims := []
  startIndicesBatchingDims := []
  startIndexMap := [0]
  indexVectorDim := 1
  sliceSizes := ![1, 384]
  wf := gather_S50000x384_S400000x1_S400000x384_1_0_n_n_0_1_1384_wf
def scatter_S50000x384_S400000x1_S400000x384_1_0_0_1 : ScatterDims S50000x384 S400000x1 S400000x384 where
  updateWindowDims := [1]
  insertedWindowDims := [0]
  scatterDimsToOperandDims := [0]
  indexVectorDim := 1
  wf := scatter_S50000x384_S400000x1_S400000x384_1_0_0_1_wf
def dot_S5000x384_S384x384_S5000x384_1_0_0_1_n_n : DotDims S5000x384 S384x384 S5000x384 where
  lhsContracting := [1]
  rhsContracting := [0]
  lhsNonContracting := [0]
  rhsNonContracting := [1]
  lhsBatch := []
  rhsBatch := []
  wf := dot_S5000x384_S384x384_S5000x384_1_0_0_1_n_n_wf

abbrev win0_0 : Pipeline.Window sig grid0 :=
  Pipeline.Window.ofSpec (Memref.whole main_v24) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S384x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S5000x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S5000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S384x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S384x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S5000x384.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v60) S5000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S384x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S384x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S5000x384.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v78) S5000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x384.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S384x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S384x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S1x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v86) S5000x384.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x384 : Shape := ⟨2, ![50000, 384]⟩
abbrev S2x400000 : Shape := ⟨2, ![2, 400000]⟩
abbrev S4x384x384 : Shape := ⟨3, ![4, 384, 384]⟩
abbrev S4x384 : Shape := ⟨2, ![4, 384]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S400000x384 : Shape := ⟨2, ![400000, 384]⟩
abbrev S50000x1 : Shape := ⟨2, ![50000, 1]⟩
abbrev S1x384x384 : Shape := ⟨3, ![1, 384, 384]⟩
abbrev S384x384 : Shape := ⟨2, ![384, 384]⟩
abbrev S1x384 : Shape := ⟨2, ![1, 384]⟩
abbrev S384 : Shape := ⟨1, ![384]⟩

abbrev nBuf : Space → Nat
  | .hbm => 142
  | .vmem => 0
  | .smem => 0
  | _ => 0

abbrev hbmTy0_0 (i : Nat) : BufTy := match i % 128 with
  | 0 => ⟨S50000x384, .f32⟩
  | 1 => ⟨S2x400000, .i32⟩
  | 2 => ⟨S4x384x384, .f32⟩
  | 3 => ⟨S4x384x384, .f32⟩
  | 4 => ⟨S4x384, .f32⟩
  | 5 => ⟨S1x400000, .i32⟩
  | 6 => ⟨S400000, .i32⟩
  | 7 => ⟨S1x400000, .i32⟩
  | 8 => ⟨S400000, .i32⟩
  | 9 => ⟨S_, .f32⟩
  | 10 => ⟨S400000, .f32⟩
  | 11 => ⟨S_, .f32⟩
  | 12 => ⟨S50000, .f32⟩
  | 13 => ⟨S400000x1, .i32⟩
  | 14 => ⟨S50000, .f32⟩
  | 15 => ⟨S_, .f32⟩
  | 16 => ⟨S50000, .f32⟩
  | 17 => ⟨S50000, .f32⟩
  | 18 => ⟨S_, .f32⟩
  | 19 => ⟨S50000, .f32⟩
  | 20 => ⟨S50000, .f32⟩
  | 21 => ⟨S_, .i32⟩
  | 22 => ⟨S400000, .i32⟩
  | 23 => ⟨S400000, .i1⟩
  | 24 => ⟨S_, .i32⟩
  | 25 => ⟨S400000, .i32⟩
  | 26 => ⟨S400000, .i32⟩
  | 27 => ⟨S400000, .i32⟩
  | 28 => ⟨S400000x1, .i32⟩
  | 29 => ⟨S400000x384, .f32⟩
  | 30 => ⟨S_, .f32⟩
  | 31 => ⟨S50000x384, .f32⟩
  | 32 => ⟨S400000x1, .i32⟩
  | 33 => ⟨S50000x384, .f32⟩
  | 34 => ⟨S50000x1, .f32⟩
  | 35 => ⟨S50000x384, .f32⟩
  | 36 => ⟨S50000x384, .f32⟩
  | 37 => ⟨S1x384x384, .f32⟩
  | 38 => ⟨S384x384, .f32⟩
  | 39 => ⟨S50000x384, .f32⟩
  | 40 => ⟨S1x384, .f32⟩
  | 41 => ⟨S384, .f32⟩
  | 42 => ⟨S1x384, .f32⟩
  | 43 => ⟨S50000x384, .f32⟩
  | 44 => ⟨S50000x384, .f32⟩
  | 45 => ⟨S1x384x384, .f32⟩
  | 46 => ⟨S384x384, .f32⟩
  | 47 => ⟨S50000x384, .f32⟩
  | 48 => ⟨S50000x384, .f32⟩
  | 49 => ⟨S_, .f32⟩
  | 50 => ⟨S50000x384, .f32⟩
  | 51 => ⟨S50000x384, .f32⟩
  | 52 => ⟨S_, .i32⟩
  | 53 => ⟨S400000, .i32⟩
  | 54 => ⟨S400000, .i1⟩
  | 55 => ⟨S_, .i32⟩
  | 56 => ⟨S400000, .i32⟩
  | 57 => ⟨S400000, .i32⟩
  | 58 => ⟨S400000, .i32⟩
  | 59 => ⟨S400000x1, .i32⟩
  | 60 => ⟨S400000x384, .f32⟩
  | 61 => ⟨S_, .f32⟩
  | 62 => ⟨S50000x384, .f32⟩
  | 63 => ⟨S400000x1, .i32⟩
  | 64 => ⟨S50000x384, .f32⟩
  | 65 => ⟨S50000x1, .f32⟩
  | 66 => ⟨S50000x384, .f32⟩
  | 67 => ⟨S50000x384, .f32⟩
  | 68 => ⟨S1x384x384, .f32⟩
  | 69 => ⟨S384x384, .f32⟩
  | 70 => ⟨S50000x384, .f32⟩
  | 71 => ⟨S1x384, .f32⟩
  | 72 => ⟨S384, .f32⟩
  | 73 => ⟨S1x384, .f32⟩
  | 74 => ⟨S50000x384, .f32⟩
  | 75 => ⟨S50000x384, .f32⟩
  | 76 => ⟨S1x384x384, .f32⟩
  | 77 => ⟨S384x384, .f32⟩
  | 78 => ⟨S50000x384, .f32⟩
  | 79 => ⟨S50000x384, .f32⟩
  | 80 => ⟨S_, .f32⟩
  | 81 => ⟨S50000x384, .f32⟩
  | 82 => ⟨S50000x384, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000x384, .f32⟩
  | 92 => ⟨S_, .f32⟩
  | 93 => ⟨S50000x384, .f32⟩
  | 94 => ⟨S400000x1, .i32⟩
  | 95 => ⟨S50000x384, .f32⟩
  | 96 => ⟨S50000x1, .f32⟩
  | 97 => ⟨S50000x384, .f32⟩
  | 98 => ⟨S50000x384, .f32⟩
  | 99 => ⟨S1x384x384, .f32⟩
  | 100 => ⟨S384x384, .f32⟩
  | 101 => ⟨S50000x384, .f32⟩
  | 102 => ⟨S1x384, .f32⟩
  | 103 => ⟨S384, .f32⟩
  | 104 => ⟨S1x384, .f32⟩
  | 105 => ⟨S50000x384, .f32⟩
  | 106 => ⟨S50000x384, .f32⟩
  | 107 => ⟨S1x384x384, .f32⟩
  | 108 => ⟨S384x384, .f32⟩
  | 109 => ⟨S50000x384, .f32⟩
  | 110 => ⟨S50000x384, .f32⟩
  | 111 => ⟨S_, .f32⟩
  | 112 => ⟨S50000x384, .f32⟩
  | 113 => ⟨S50000x384, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x384, .f32⟩
  | 123 => ⟨S_, .f32⟩
  | 124 => ⟨S50000x384, .f32⟩
  | 125 => ⟨S400000x1, .i32⟩
  | 126 => ⟨S50000x384, .f32⟩
  | 127 => ⟨S50000x1, .f32⟩
  | _ => ⟨S50000x384, .f32⟩

abbrev hbmTy0_1 (i : Nat) : BufTy := match i % 128 with
  | 0 => ⟨S50000x384, .f32⟩
  | 1 => ⟨S50000x384, .f32⟩
  | 2 => ⟨S1x384x384, .f32⟩
  | 3 => ⟨S384x384, .f32⟩
  | 4 => ⟨S50000x384, .f32⟩
  | 5 => ⟨S1x384, .f32⟩
  | 6 => ⟨S384, .f32⟩
  | 7 => ⟨S1x384, .f32⟩
  | 8 => ⟨S50000x384, .f32⟩
  | 9 => ⟨S50000x384, .f32⟩
  | 10 => ⟨S1x384x384, .f32⟩
  | 11 => ⟨S384x384, .f32⟩
  | 12 => ⟨S50000x384, .f32⟩
  | 13 => ⟨S50000x384, .f32⟩
  | _ => ⟨S50000x384, .f32⟩

abbrev hbmTy (i : Nat) : BufTy := match i / 128 with
  | 0 => hbmTy0_0 i
  | 1 => hbmTy0_1 i
  | _ => ⟨S50000x384, .f32⟩

abbrev bufTy : (tb : Table) → Fin (tcTables nBuf tb) → BufTy
  | .hbm, ⟨i, _⟩ => hbmTy i
  | _, _ => ⟨S50000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_cst : Ref sig .tc := ⟨.hbm, 49, rfl⟩
abbrev main_call0_v0 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call1_cst : Ref sig .tc := ⟨.hbm, 80, rfl⟩
abbrev main_call1_v0 : Ref sig .tc := ⟨.hbm, 81, rfl⟩
abbrev main_v63 : Ref sig .tc := ⟨.hbm, 82, rfl⟩
abbrev main_c_8 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call2_cst : Ref sig .tc := ⟨.hbm, 111, rfl⟩
abbrev main_call2_v0 : Ref sig .tc := ⟨.hbm, 112, rfl⟩
abbrev main_v89 : Ref sig .tc := ⟨.hbm, 113, rfl⟩
abbrev main_c_11 : Ref sig .tc := ⟨.hbm, 114, rfl⟩
abbrev main_v90 : Ref sig .tc := ⟨.hbm, 115, rfl⟩
abbrev main_v91 : Ref sig .tc := ⟨.hbm, 116, rfl⟩
abbrev main_c_12 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_13 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S_S50000x384 : S_.BroadcastsInDim S50000x384 (![] : Fin 0 → Fin S50000x384.rank)
  bcast_S50000_S50000x1_0 : S50000.BroadcastsInDim S50000x1 (![0] : Fin 1 → Fin S50000x1.rank)
  bcast_S50000x1_S50000x384_0_1 : S50000x1.BroadcastsInDim S50000x384 (![0, 1] : Fin 2 → Fin S50000x384.rank)
  slices_S4x384x384_S1x384x384_0_0_0 : S4x384x384.Slices ![0, 0, 0] S1x384x384
  shapeCasts_S1x384x384_S384x384 : S1x384x384.ShapeCasts S384x384
  slices_S4x384_S1x384_0_0 : S4x384.Slices ![0, 0] S1x384
  shapeCasts_S1x384_S384 : S1x384.ShapeCasts S384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S4x384x384_S1x384x384_1_0_0 : S4x384x384.Slices ![1, 0, 0] S1x384x384
  slices_S4x384_S1x384_1_0 : S4x384.Slices ![1, 0] S1x384
  slices_S4x384x384_S1x384x384_2_0_0 : S4x384x384.Slices ![2, 0, 0] S1x384x384
  slices_S4x384_S1x384_2_0 : S4x384.Slices ![2, 0] S1x384
  slices_S4x384x384_S1x384x384_3_0_0 : S4x384x384.Slices ![3, 0, 0] S1x384x384
  slices_S4x384_S1x384_3_0 : S4x384.Slices ![3, 0] S1x384
  scatter_S50000_S400000x1_S400000_n_0_0_1_wf : ScatterDims.WF S50000 S400000x1 S400000 [] [0] [0] 1
  gather_S50000x384_S400000x1_S400000x384_1_0_n_n_0_1_1384_wf : GatherDims.WF S50000x384 S400000x1 S400000x384 [1] [0] [] [0] [] 1 ![1, 384]
  scatter_S50000x384_S400000x1_S400000x384_1_0_0_1_wf : ScatterDims.WF S50000x384 S400000x1 S400000x384 [1] [0] [0] 1
  dot_S50000x384_S384x384_S50000x384_1_0_0_1_n_n_wf : DotDims.WF S50000x384 S384x384 S50000x384 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x384_S400000x1_S400000x384_1_0_n_n_0_1_1384 : GatherDims S50000x384 S400000x1 S400000x384 where
  offsetDims := [1]
  collapsedSliceDims := [0]
  operandBatchingDims := []
  startIndicesBatchingDims := []
  startIndexMap := [0]
  indexVectorDim := 1
  sliceSizes := ![1, 384]
  wf := gather_S50000x384_S400000x1_S400000x384_1_0_n_n_0_1_1384_wf
def scatter_S50000x384_S400000x1_S400000x384_1_0_0_1 : ScatterDims S50000x384 S400000x1 S400000x384 where
  updateWindowDims := [1]
  insertedWindowDims := [0]
  scatterDimsToOperandDims := [0]
  indexVectorDim := 1
  wf := scatter_S50000x384_S400000x1_S400000x384_1_0_0_1_wf
def dot_S50000x384_S384x384_S50000x384_1_0_0_1_n_n : DotDims S50000x384 S384x384 S50000x384 where
  lhsContracting := [1]
  rhsContracting := [0]
  lhsNonContracting := [0]
  rhsNonContracting := [1]
  lhsBatch := []
  rhsBatch := []
  wf := dot_S50000x384_S384x384_S50000x384_1_0_0_1_n_n_wf

class Facts : Prop extends Facts₀ where

variable [Facts]
-- ==== Proof.KernelRun.lean ====
/-
  The idealized kernel's run with its result NAMED.  The program is four launches of the layer kernel among
  stretches of host operations; every weakly fair execution ends, nothing faulting, with the argument arrays as
  launched and the result buffer holding what the last launch's write-backs leave — the last entry of the fold
  of buffer contents through the program's segments.  What that entry is, as a function of the arguments, is
  read off separately.
-/
import proofs.«126454_j3831110828324_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the five argument arrays end as launched. -/
theorem run_named : θ_run defs (onTc (τ := τ) (main (F := F))) ⟨m, fun _ => 0, ρ⟩ (fun r => ∀ c : Dev nD,
      r.2.mem ((c.tc : Thread nD τ).loc main_v86) = W8 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v86 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.Gen

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KPayload.lean ====
/-
  One grid point of the layer kernel, as arithmetic.  The body loads a block of 5000 rows of the summed
  neighbour features `s`, the same rows of the node features `x`, those rows' inverse degrees `iv` (a column),
  the two 384 × 384 weight matrices and the bias row, and stores
      (s · iv) Wl  +  x Wr  +  bias        (clamped below at zero in the hidden layers)
  with both products accumulated from zero.  Changes of float format are the identity on the extended reals, a
  shape cast to the same shape is the identity, the column is read along its row and the bias row along its
  column, and each product at (y, j) is the sum over k < 384 of left(y, k) · right(k, j).
-/
import proofs.«126454_j3831110828324_2_alg».proof.Proof.Gen.KernelIdeal.Skeleton
import proofs.«126454_j3831110828324_2_alg».proof.Proof.LibColumn
import proofs.«126454_j3831110828324_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The affine part of a layer on one block of rows, at row `y` of the block and feature `j`. -/
def blockLin (s x : FVec Ideal S5000x384 .f32) (iv : FVec Ideal S5000x1 .f32) (wl wr : FVec Ideal S384x384 .bf16)
    (b : FVec Ideal S1x384 .f32) (y : Fin 5000) (j : Fin 384) : EReal :=
  (∑ k : Fin 384, (s (ix2 y k) * iv (ix2 y (0 : Fin 1))) * wl (ix2 k j))
    + (∑ k : Fin 384, x (ix2 y k) * wr (ix2 k j))
    + b (ix2 (0 : Fin 1) j)

/-- The kernel's contraction is the plain rows-by-columns product. -/
theorem dot_plain : dot_S5000x384_S384x384_S5000x384_1_0_0_1_n_n = DotDims.plain 5000 384 384 := rfl

/-- The two products and the bias of one block, before the clamp. -/
theorem affine_apply (s x : FVec Ideal S5000x384 .f32) (iv : FVec Ideal S5000x1 .f32) (wl wr : FVec Ideal S384x384 .bf16)
    (b : FVec Ideal S1x384 .f32) (y : Fin 5000) (j : Fin 384) :
    addf (addf
        (matmul dot_S5000x384_S384x384_S5000x384_1_0_0_1_n_n none
          (truncf .bf16 (mulf s (broadcastTo S5000x384 iv broadcasts_S5000x1_S5000x384)) bitsLt_bf16_f32) wl
          (constant S5000x384 .f32 0x00000000#32))
        (matmul dot_S5000x384_S384x384_S5000x384_1_0_0_1_n_n none (truncf .bf16 x bitsLt_bf16_f32) wr
          (constant S5000x384 .f32 0x00000000#32)))
      (broadcastTo S5000x384 b broadcasts_S1x384_S5000x384) (ix2 y j)
    = blockLin s x iv wl wr b y j := by
  rw [dot_plain]
  show (matmul (F := Ideal) (DotDims.plain 5000 384 384) none _ wl (constant ⟨2, ![5000, 384]⟩ .f32 0x00000000#32) (ix2 y j)
      + matmul (F := Ideal) (DotDims.plain 5000 384 384) none _ wr (constant ⟨2, ![5000, 384]⟩ .f32 0x00000000#32) (ix2 y j))
      + broadcastTo ⟨2, ![5000, 384]⟩ b broadcasts_S1x384_S5000x384 (ix2 y j) = _
  rw [Cert.LibPlainDot.matmul_plain, Cert.LibPlainDot.matmul_plain, broadcastTo_1b_ab_apply]
  unfold blockLin
  refine congrArg (· + b (ix2 (0 : Fin 1) j)) (congr (congrArg HAdd.hAdd ?_) ?_)
  · refine Finset.sum_congr rfl fun k _ => ?_
    show (s (ix2 y k) * broadcastTo ⟨2, ![5000, 384]⟩ iv broadcasts_S5000x1_S5000x384 (ix2 y k)) * wl (ix2 k j) = _
    rw [Cert.LibColumn.broadcastTo_a1_ab_apply]
  · rfl

/-- Layer 0's stored block (a hidden layer: clamped below at zero). -/
theorem pay0_apply (v0 : FVec Ideal S5000x384 .f32) (v2 : FVec Ideal S5000x1 .f32) (v7 : FVec Ideal S5000x384 .f32)
    (v9 v12 : FVec Ideal S384x384 .bf16) (v16 : FVec Ideal S1x384 .f32) (y : Fin 5000) (j : Fin 384) :
    k0_pay1 (F := Ideal) v0 v2 v7 v9 v12 v16 (ix2 y j) = max (blockLin v0 v7 v2 v9 v12 v16 y j) 0 := by
  unfold k0_pay1
  simp only [shapeCast_self]
  show max (addf (addf _ _) _ (ix2 y j)) (Ideal.ofBits .f32 0x00000000#32) = _
  rw [affine_apply, Ideal.ofBits_zero_f32]

/-- Layer 1's stored block. -/
theorem pay1_apply (v0 : FVec Ideal S5000x384 .f32) (v2 : FVec Ideal S5000x1 .f32) (v7 : FVec Ideal S5000x384 .f32)
    (v10 v13 : FVec Ideal S384x384 .bf16) (v17 : FVec Ideal S1x384 .f32) (y : Fin 5000) (j : Fin 384) :
    k1_pay1 (F := Ideal) v0 v2 v7 v10 v13 v17 (ix2 y j) = max (blockLin v0 v7 v2 v10 v13 v17 y j) 0 := by
  unfold k1_pay1
  simp only [shapeCast_self]
  show max (addf (addf _ _) _ (ix2 y j)) (Ideal.ofBits .f32 0x00000000#32) = _
  rw [affine_apply, Ideal.ofBits_zero_f32]

/-- Layer 2's stored block. -/
theorem pay2_apply (v0 : FVec Ideal S5000x384 .f32) (v2 : FVec Ideal S5000x1 .f32) (v7 : FVec Ideal S5000x384 .f32)
    (v10 v13 : FVec Ideal S384x384 .bf16) (v17 : FVec Ideal S1x384 .f32) (y : Fin 5000) (j : Fin 384) :
    k2_pay1 (F := Ideal) v0 v2 v7 v10 v13 v17 (ix2 y j) = max (blockLin v0 v7 v2 v10 v13 v17 y j) 0 := by
  unfold k2_pay1
  simp only [shapeCast_self]
  show max (addf (addf _ _) _ (ix2 y j)) (Ideal.ofBits .f32 0x00000000#32) = _
  rw [affine_apply, Ideal.ofBits_zero_f32]

/-- Layer 3's stored block (the last layer: no clamp). -/
theorem pay3_apply (v0 : FVec Ideal S5000x384 .f32) (v2 : FVec Ideal S5000x1 .f32) (v7 : FVec Ideal S5000x384 .f32)
    (v10 v13 : FVec Ideal S384x384 .bf16) (v17 : FVec Ideal S1x384 .f32) (y : Fin 5000) (j : Fin 384) :
    k3_pay1 (F := Ideal) v0 v2 v7 v10 v13 v17 (ix2 y j) = blockLin v0 v7 v2 v10 v13 v17 y j := by
  unfold k3_pay1
  simp only [shapeCast_self]
  exact affine_apply v0 v7 v2 v10 v13 v17 y j

/-! ## The same layer on whole arrays -/

/-- The affine part of a layer on the whole arrays as a launch finds them: the summed neighbour features `s`, the node
    features `x`, the inverse degrees as a column, one layer's two weight matrices and its bias as a row. -/
def arrLin (s x : FVec Ideal S50000x384 .f32) (iv : FVec Ideal S50000x1 .f32) (wl wr : FVec Ideal S384x384 .bf16)
    (b : FVec Ideal S1x384 .f32) (r : Fin 50000) (j : Fin 384) : EReal :=
  (∑ k : Fin 384, (s (ix2 r k) * iv (ix2 r (0 : Fin 1))) * wl (ix2 k j))
    + (∑ k : Fin 384, x (ix2 r k) * wr (ix2 k j))
    + b (ix2 (0 : Fin 1) j)

/-- A hidden layer on whole arrays. -/
def arrRelu (s x : FVec Ideal S50000x384 .f32) (iv : FVec Ideal S50000x1 .f32) (wl wr : FVec Ideal S384x384 .bf16)
    (b : FVec Ideal S1x384 .f32) : FVec Ideal S50000x384 .f32 :=
  fun i => max (arrLin s x iv wl wr b (i 0) (i 1)) 0

/-- The last layer on whole arrays. -/
def arrLast (s x : FVec Ideal S50000x384 .f32) (iv : FVec Ideal S50000x1 .f32) (wl wr : FVec Ideal S384x384 .bf16)
    (b : FVec Ideal S1x384 .f32) : FVec Ideal S50000x384 .f32 :=
  fun i => arrLin s x iv wl wr b (i 0) (i 1)

/-- Row `p` of block `t` is row `5000 t + p` of the array. -/
def rowOf (t : Fin 10) (p : Fin 5000) : Fin 50000 := ⟨t.val * 5000 + p.val, by have := t.isLt; have := p.isLt; omega⟩

/-- A block of the layer is the layer's rows: if the six blocks are the arrays' rows `5000 t …` (the weights and the bias
    whole), the block-level affine part at `(p, j)` is the array-level one at `(5000 t + p, j)`. -/
theorem blockLin_eq_arrLin (S X : FVec Ideal S50000x384 .f32) (IV : FVec Ideal S50000x1 .f32) (wl wr : FVec Ideal S384x384 .bf16)
    (b : FVec Ideal S1x384 .f32) (s x : FVec Ideal S5000x384 .f32) (iv : FVec Ideal S5000x1 .f32) (t : Fin 10) (p : Fin 5000) (j : Fin 384)
    (hs : ∀ k : Fin 384, s (ix2 p k) = S (ix2 (rowOf t p) k)) (hx : ∀ k : Fin 384, x (ix2 p k) = X (ix2 (rowOf t p) k))
    (hiv : iv (ix2 p (0 : Fin 1)) = IV (ix2 (rowOf t p) (0 : Fin 1))) :
    blockLin s x iv wl wr b p j = arrLin S X IV wl wr b (rowOf t p) j := by
  unfold blockLin arrLin
  rw [hiv]
  refine congrArg (· + b (ix2 (0 : Fin 1) j)) (congr (congrArg HAdd.hAdd ?_) ?_)
  · exact Finset.sum_congr rfl fun k _ => by rw [hs k]
  · exact Finset.sum_congr rfl fun k _ => by rw [hx k]

end Cert.KernelIdeal.Payload

end
-- ==== Proof.Region0.lean ====
/-
  Launch 0 of the layer kernel, read as one function of the arrays it finds.
  The grid has ten points; point `t` stages rows `5000 t … 5000 t + 4999` of the summed neighbour features, of the
  node features and of the inverse-degree column, the two weight matrices and the bias row whole, and writes back the
  same rows of the result.  So what point `t` writes back is block `t` of ONE array-level function — the layer on the
  whole arrays — and since the ten blocks tile the result's 50000 rows, the result array ends as that function.
-/
import proofs.«126454_j3831110828324_2_alg».proof.Proof.Gen.KernelIdeal.Frame
import proofs.«126454_j3831110828324_2_alg».proof.Proof.KPayload
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The layer on the arrays the launch finds. -/
def G (c : Dev nD) : FVec Ideal S50000x384 .f32 :=
  arrRelu (V c main_v24) (V c main_arg0) (V c main_v12) (V c main_v26) (V c main_v28) (V c main_v31)

/-- The printed index maps, decided over the grid: the three row-blocked inputs and the output sit at block `(t, 0)`,
    the weights and the bias at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A grid point as a number below ten. -/
def pt (t : Fin cfg0.N) : Fin 10 := ⟨t.val, by have := t.isLt; have h : cfg0.N = 10 := N_0; omega⟩

/-- WHAT POINT `t` WRITES BACK is block `t` of the layer on the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x384) hz, View.ld_unit_zero (S := S5000x1) hz,
    View.ld_unit_zero (S := S384x384) hz, View.ld_unit_zero (S := S1x384) hz]
  obtain ⟨e00, e01, e10, e11, e20, e21, e30, e31, e40, e41, e50, e51, e60, e61⟩ := idx_facts t
  refine funext fun (y : S5000x384.Idx) => ?_
  obtain ⟨p, q, rfl⟩ : ∃ (p : Fin 5000) (q : Fin 384), y = ix2 p q := ⟨y 0, y 1, eq_ix2 y⟩
  have hout : ((cfg0.win 6).blk t).view.emb (ix2 p q) = (ix2 (rowOf (pt t) p) q : S50000x384.Idx) := by
    funext a; apply Fin.ext
    match a with
    | ⟨0, _⟩ => show win0_6.index t (0 : Fin 2) * 5000 + 1 * p.val = t.val * 5000 + p.val; omega
    | ⟨1, _⟩ => show win0_6.index t (1 : Fin 2) * 384 + 1 * q.val = q.val; omega
  have hs : ∀ k : Fin 384, iblk0 V c 0 t (ix2 p k) = V c main_v24 (ix2 (rowOf (pt t) p) k) := fun k => by
    show V c main_v24 (((cfg0.win 0).blk t).view.emb (ix2 p k)) = _
    refine congrArg (V c main_v24) (funext fun a => Fin.ext ?_)
    match a with
    | ⟨0, _⟩ => show win0_0.index t (0 : Fin 2) * 5000 + 1 * p.val = t.val * 5000 + p.val; omega
    | ⟨1, _⟩ => show win0_0.index t (1 : Fin 2) * 384 + 1 * k.val = k.val; omega
  have hx : ∀ k : Fin 384, iblk0 V c 1 t (ix2 p k) = V c main_arg0 (ix2 (rowOf (pt t) p) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 384 + 1 * k.val = k.val; omega
  have hiv : iblk0 V c 2 t (ix2 p (0 : Fin 1)) = V c main_v12 (ix2 (rowOf (pt t) p) (0 : Fin 1)) := by
    show V c main_v12 (((cfg0.win 2).blk t).view.emb (ix2 p (0 : Fin 1))) = _
    refine congrArg (V c main_v12) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  have hwl : (iblk0 V c 3 t : FVec Ideal S384x384 .bf16) = V c main_v26 := funext fun (z : S384x384.Idx) => by
    show V c main_v26 (((cfg0.win 3).blk t).view.emb z) = _
    refine congrArg (V c main_v26) (funext fun a => Fin.ext ?_)
    match a with
    | ⟨0, _⟩ => show win0_3.index t (0 : Fin 2) * 384 + 1 * (z 0).val = (z 0).val; omega
    | ⟨1, _⟩ => show win0_3.index t (1 : Fin 2) * 384 + 1 * (z 1).val = (z 1).val; omega
  have hwr : (iblk0 V c 4 t : FVec Ideal S384x384 .bf16) = V c main_v28 := funext fun (z : S384x384.Idx) => by
    show V c main_v28 (((cfg0.win 4).blk t).view.emb z) = _
    refine congrArg (V c main_v28) (funext fun a => Fin.ext ?_)
    match a with
    | ⟨0, _⟩ => show win0_4.index t (0 : Fin 2) * 384 + 1 * (z 0).val = (z 0).val; omega
    | ⟨1, _⟩ => show win0_4.index t (1 : Fin 2) * 384 + 1 * (z 1).val = (z 1).val; omega
  have hb : (iblk0 V c 5 t : FVec Ideal S1x384 .f32) = V c main_v31 := funext fun (z : S1x384.Idx) => by
    show V c main_v31 (((cfg0.win 5).blk t).view.emb z) = _
    refine congrArg (V c main_v31) (funext fun a => Fin.ext ?_)
    match a with
    | ⟨0, _⟩ => show win0_5.index t (0 : Fin 2) * 1 + 1 * (z 0).val = (z 0).val; omega
    | ⟨1, _⟩ => show win0_5.index t (1 : Fin 2) * 384 + 1 * (z 1).val = (z 1).val; omega
  show k0_pay1 (F := Ideal) (iblk0 V c 0 t) (iblk0 V c 2 t) (iblk0 V c 1 t) (iblk0 V c 3 t) (iblk0 V c 4 t) (iblk0 V c 5 t) (ix2 p q)
    = G V c (((cfg0.win 6).blk t).view.emb (ix2 p q))
  rw [hout]
  refine (pay0_apply _ _ _ _ _ _ p q).trans ?_
  rw [blockLin_eq_arrLin (V c main_v24) (V c main_arg0) (V c main_v12) _ _ _ _ _ _ (pt t) p q hs hx hiv, hwl, hwr, hb]
  rfl

/-- An index of the result array is in point `t`'s block iff each coordinate is in the block's range on its axis. -/
theorem mem_blk (t : Fin cfg0.N) (i : S50000x384.Idx) :
    i ∈ ((cfg0.win 6).blk t).view.set ↔ ∀ a : Fin 2, win0_6.index t a * S5000x384.size a ≤ (i a).val ∧ (i a).val < win0_6.index t a * S5000x384.size a + S5000x384.size a := by
  show i ∈ ((View.whole main_v32).slice (win0_6.rect t)).set ↔ _
  rw [View.set_slice_whole, Rect.mem_set_unit]
  exact Iff.rfl

/-- The ten blocks tile the result: row `r` is in block `r / 5000`. -/
theorem cover (i : S50000x384.Idx) : ∃ t : Fin cfg0.N, (cfg0.win 6).flush t = true ∧ i ∈ ((cfg0.win 6).blk t).view.set := by
  have hi0 : (i 0).val < 50000 := (i 0).isLt
  have hi1 : (i 1).val < 384 := (i 1).isLt
  have hN : cfg0.N = 10 := N_0
  have hN' : grid0.N = 10 := N_0
  refine ⟨⟨(i 0).val / 5000, by omega⟩, flush0_6 _, ?_⟩
  rw [mem_blk]
  obtain ⟨-, -, -, -, -, -, -, -, -, -, -, -, e60, e61⟩ := idx_facts ⟨(i 0).val / 5000, by omega⟩
  have e60' : win0_6.index ⟨(i 0).val / 5000, by omega⟩ (0 : Fin 2) = (i 0).val / 5000 := e60
  intro a
  match a with
  | ⟨0, _⟩ => show win0_6.index ⟨(i 0).val / 5000, by omega⟩ (0 : Fin 2) * 5000 ≤ (i 0).val ∧ (i 0).val < win0_6.index ⟨(i 0).val / 5000, by omega⟩ (0 : Fin 2) * 5000 + 5000; omega
  | ⟨1, _⟩ => show win0_6.index ⟨(i 0).val / 5000, by omega⟩ (1 : Fin 2) * 384 ≤ (i 1).val ∧ (i 1).val < win0_6.index ⟨(i 0).val / 5000, by omega⟩ (1 : Fin 2) * 384 + 384; omega

/-- THE RESULT ARRAY after the launch is the layer on the arrays the launch found. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.Region1.lean ====
/-
  Launch 1 of the layer kernel, read as one function of the arrays it finds.
  The grid has ten points; point `t` stages rows `5000 t … 5000 t + 4999` of the summed neighbour features, of the
  node features and of the inverse-degree column, the two weight matrices and the bias row whole, and writes back the
  same rows of the result.  So what point `t` writes back is block `t` of ONE array-level function — the layer on the
  whole arrays — and since the ten blocks tile the result's 50000 rows, the result array ends as that function.
-/
import proofs.«126454_j3831110828324_2_alg».proof.Proof.Gen.KernelIdeal.Frame
import proofs.«126454_j3831110828324_2_alg».proof.Proof.KPayload
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The layer on the arrays the launch finds. -/
def G (c : Dev nD) : FVec Ideal S50000x384 .f32 :=
  arrRelu (V c main_v42) (V c main_v32) (V c main_v12) (V c main_v44) (V c main_v46) (V c main_v49)

/-- The printed index maps, decided over the grid: the three row-blocked inputs and the output sit at block `(t, 0)`,
    the weights and the bias at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A grid point as a number below ten. -/
def pt (t : Fin cfg1.N) : Fin 10 := ⟨t.val, by have := t.isLt; have h : cfg1.N = 10 := N_1; omega⟩

/-- WHAT POINT `t` WRITES BACK is block `t` of the layer on the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x384) hz, View.ld_unit_zero (S := S5000x1) hz,
    View.ld_unit_zero (S := S384x384) hz, View.ld_unit_zero (S := S1x384) hz]
  obtain ⟨e00, e01, e10, e11, e20, e21, e30, e31, e40, e41, e50, e51, e60, e61⟩ := idx_facts t
  refine funext fun (y : S5000x384.Idx) => ?_
  obtain ⟨p, q, rfl⟩ : ∃ (p : Fin 5000) (q : Fin 384), y = ix2 p q := ⟨y 0, y 1, eq_ix2 y⟩
  have hout : ((cfg1.win 6).blk t).view.emb (ix2 p q) = (ix2 (rowOf (pt t) p) q : S50000x384.Idx) := by
    funext a; apply Fin.ext
    match a with
    | ⟨0, _⟩ => show win1_6.index t (0 : Fin 2) * 5000 + 1 * p.val = t.val * 5000 + p.val; omega
    | ⟨1, _⟩ => show win1_6.index t (1 : Fin 2) * 384 + 1 * q.val = q.val; omega
  have hs : ∀ k : Fin 384, iblk1 V c 0 t (ix2 p k) = V c main_v42 (ix2 (rowOf (pt t) p) k) := fun k => by
    show V c main_v42 (((cfg1.win 0).blk t).view.emb (ix2 p k)) = _
    refine congrArg (V c main_v42) (funext fun a => Fin.ext ?_)
    match a with
    | ⟨0, _⟩ => show win1_0.index t (0 : Fin 2) * 5000 + 1 * p.val = t.val * 5000 + p.val; omega
    | ⟨1, _⟩ => show win1_0.index t (1 : Fin 2) * 384 + 1 * k.val = k.val; omega
  have hx : ∀ k : Fin 384, iblk1 V c 1 t (ix2 p k) = V c main_v32 (ix2 (rowOf (pt t) p) k) := fun k => by
    show V c main_v32 (((cfg1.win 1).blk t).view.emb (ix2 p k)) = _
    refine congrArg (V c main_v32) (funext fun a => Fin.ext ?_)
    match a with
    | ⟨0, _⟩ => show win1_1.index t (0 : Fin 2) * 5000 + 1 * p.val = t.val * 5000 + p.val; omega
    | ⟨1, _⟩ => show win1_1.index t (1 : Fin 2) * 384 + 1 * k.val = k.val; omega
  have hiv : iblk1 V c 2 t (ix2 p (0 : Fin 1)) = V c main_v12 (ix2 (rowOf (pt t) p) (0 : Fin 1)) := by
    show V c main_v12 (((cfg1.win 2).blk t).view.emb (ix2 p (0 : Fin 1))) = _
    refine congrArg (V c main_v12) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  have hwl : (iblk1 V c 3 t : FVec Ideal S384x384 .bf16) = V c main_v44 := funext fun (z : S384x384.Idx) => by
    show V c main_v44 (((cfg1.win 3).blk t).view.emb z) = _
    refine congrArg (V c main_v44) (funext fun a => Fin.ext ?_)
    match a with
    | ⟨0, _⟩ => show win1_3.index t (0 : Fin 2) * 384 + 1 * (z 0).val = (z 0).val; omega
    | ⟨1, _⟩ => show win1_3.index t (1 : Fin 2) * 384 + 1 * (z 1).val = (z 1).val; omega
  have hwr : (iblk1 V c 4 t : FVec Ideal S384x384 .bf16) = V c main_v46 := funext fun (z : S384x384.Idx) => by
    show V c main_v46 (((cfg1.win 4).blk t).view.emb z) = _
    refine congrArg (V c main_v46) (funext fun a => Fin.ext ?_)
    match a with
    | ⟨0, _⟩ => show win1_4.index t (0 : Fin 2) * 384 + 1 * (z 0).val = (z 0).val; omega
    | ⟨1, _⟩ => show win1_4.index t (1 : Fin 2) * 384 + 1 * (z 1).val = (z 1).val; omega
  have hb : (iblk1 V c 5 t : FVec Ideal S1x384 .f32) = V c main_v49 := funext fun (z : S1x384.Idx) => by
    show V c main_v49 (((cfg1.win 5).blk t).view.emb z) = _
    refine congrArg (V c main_v49) (funext fun a => Fin.ext ?_)
    match a with
    | ⟨0, _⟩ => show win1_5.index t (0 : Fin 2) * 1 + 1 * (z 0).val = (z 0).val; omega
    | ⟨1, _⟩ => show win1_5.index t (1 : Fin 2) * 384 + 1 * (z 1).val = (z 1).val; omega
  show k1_pay1 (F := Ideal) (iblk1 V c 0 t) (iblk1 V c 2 t) (iblk1 V c 1 t) (iblk1 V c 3 t) (iblk1 V c 4 t) (iblk1 V c 5 t) (ix2 p q)
    = G V c (((cfg1.win 6).blk t).view.emb (ix2 p q))
  rw [hout]
  refine (pay1_apply _ _ _ _ _ _ p q).trans ?_
  rw [blockLin_eq_arrLin (V c main_v42) (V c main_v32) (V c main_v12) _ _ _ _ _ _ (pt t) p q hs hx hiv, hwl, hwr, hb]
  rfl

/-- An index of the result array is in point `t`'s block iff each coordinate is in the block's range on its axis. -/
theorem mem_blk (t : Fin cfg1.N) (i : S50000x384.Idx) :
    i ∈ ((cfg1.win 6).blk t).view.set ↔ ∀ a : Fin 2, win1_6.index t a * S5000x384.size a ≤ (i a).val ∧ (i a).val < win1_6.index t a * S5000x384.size a + S5000x384.size a := by
  show i ∈ ((View.whole main_v50).slice (win1_6.rect t)).set ↔ _
  rw [View.set_slice_whole, Rect.mem_set_unit]
  exact Iff.rfl

/-- The ten blocks tile the result: row `r` is in block `r / 5000`. -/
theorem cover (i : S50000x384.Idx) : ∃ t : Fin cfg1.N, (cfg1.win 6).flush t = true ∧ i ∈ ((cfg1.win 6).blk t).view.set := by
  have hi0 : (i 0).val < 50000 := (i 0).isLt
  have hi1 : (i 1).val < 384 := (i 1).isLt
  have hN : cfg1.N = 10 := N_1
  have hN' : grid1.N = 10 := N_1
  refine ⟨⟨(i 0).val / 5000, by omega⟩, flush1_6 _, ?_⟩
  rw [mem_blk]
  obtain ⟨-, -, -, -, -, -, -, -, -, -, -, -, e60, e61⟩ := idx_facts ⟨(i 0).val / 5000, by omega⟩
  have e60' : win1_6.index ⟨(i 0).val / 5000, by omega⟩ (0 : Fin 2) = (i 0).val / 5000 := e60
  intro a
  match a with
  | ⟨0, _⟩ => show win1_6.index ⟨(i 0).val / 5000, by omega⟩ (0 : Fin 2) * 5000 ≤ (i 0).val ∧ (i 0).val < win1_6.index ⟨(i 0).val / 5000, by omega⟩ (0 : Fin 2) * 5000 + 5000; omega
  | ⟨1, _⟩ => show win1_6.index ⟨(i 0).val / 5000, by omega⟩ (1 : Fin 2) * 384 ≤ (i 1).val ∧ (i 1).val < win1_6.index ⟨(i 0).val / 5000, by omega⟩ (1 : Fin 2) * 384 + 384; omega

/-- THE RESULT ARRAY after the launch is the layer on the arrays the launch found. -/
theorem final (c : Dev nD) : (dat1 V c).arrAt 6 cfg1.N = G V c :=
  (dat1 V c).arrAt_eq_of_cover 6 (G V c) (fun t _ => flushed_eq V c t) (cover)

end Cert.KernelIdeal.Region1

end
-- ==== Proof.Region2.lean ====
/-
  Launch 2 of the layer kernel, read as one function of the arrays it finds.
  The grid has ten points; point `t` stages rows `5000 t … 5000 t + 4999` of the summed neighbour features, of the
  node features and of the inverse-degree column, the two weight matrices and the bias row whole, and writes back the
  same rows of the result.  So what point `t` writes back is block `t` of ONE array-level function — the layer on the
  whole arrays — and since the ten blocks tile the result's 50000 rows, the result array ends as that function.
-/
import proofs.«126454_j3831110828324_2_alg».proof.Proof.Gen.KernelIdeal.Frame
import proofs.«126454_j3831110828324_2_alg».proof.Proof.KPayload
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The layer on the arrays the launch finds. -/
def G (c : Dev nD) : FVec Ideal S50000x384 .f32 :=
  arrRelu (V c main_v60) (V c main_v50) (V c main_v12) (V c main_v62) (V c main_v64) (V c main_v67)

/-- The printed index maps, decided over the grid: the three row-blocked inputs and the output sit at block `(t, 0)`,
    the weights and the bias at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A grid point as a number below ten. -/
def pt (t : Fin cfg2.N) : Fin 10 := ⟨t.val, by have := t.isLt; have h : cfg2.N = 10 := N_2; omega⟩

/-- WHAT POINT `t` WRITES BACK is block `t` of the layer on the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x384) hz, View.ld_unit_zero (S := S5000x1) hz,
    View.ld_unit_zero (S := S384x384) hz, View.ld_unit_zero (S := S1x384) hz]
  obtain ⟨e00, e01, e10, e11, e20, e21, e30, e31, e40, e41, e50, e51, e60, e61⟩ := idx_facts t
  refine funext fun (y : S5000x384.Idx) => ?_
  obtain ⟨p, q, rfl⟩ : ∃ (p : Fin 5000) (q : Fin 384), y = ix2 p q := ⟨y 0, y 1, eq_ix2 y⟩
  have hout : ((cfg2.win 6).blk t).view.emb (ix2 p q) = (ix2 (rowOf (pt t) p) q : S50000x384.Idx) := by
    funext a; apply Fin.ext
    match a with
    | ⟨0, _⟩ => show win2_6.index t (0 : Fin 2) * 5000 + 1 * p.val = t.val * 5000 + p.val; omega
    | ⟨1, _⟩ => show win2_6.index t (1 : Fin 2) * 384 + 1 * q.val = q.val; omega
  have hs : ∀ k : Fin 384, iblk2 V c 0 t (ix2 p k) = V c main_v60 (ix2 (rowOf (pt t) p) k) := fun k => by
    show V c main_v60 (((cfg2.win 0).blk t).view.emb (ix2 p k)) = _
    refine congrArg (V c main_v60) (funext fun a => Fin.ext ?_)
    match a with
    | ⟨0, _⟩ => show win2_0.index t (0 : Fin 2) * 5000 + 1 * p.val = t.val * 5000 + p.val; omega
    | ⟨1, _⟩ => show win2_0.index t (1 : Fin 2) * 384 + 1 * k.val = k.val; omega
  have hx : ∀ k : Fin 384, iblk2 V c 1 t (ix2 p k) = V c main_v50 (ix2 (rowOf (pt t) p) k) := fun k => by
    show V c main_v50 (((cfg2.win 1).blk t).view.emb (ix2 p k)) = _
    refine congrArg (V c main_v50) (funext fun a => Fin.ext ?_)
    match a with
    | ⟨0, _⟩ => show win2_1.index t (0 : Fin 2) * 5000 + 1 * p.val = t.val * 5000 + p.val; omega
    | ⟨1, _⟩ => show win2_1.index t (1 : Fin 2) * 384 + 1 * k.val = k.val; omega
  have hiv : iblk2 V c 2 t (ix2 p (0 : Fin 1)) = V c main_v12 (ix2 (rowOf (pt t) p) (0 : Fin 1)) := by
    show V c main_v12 (((cfg2.win 2).blk t).view.emb (ix2 p (0 : Fin 1))) = _
    refine congrArg (V c main_v12) (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  have hwl : (iblk2 V c 3 t : FVec Ideal S384x384 .bf16) = V c main_v62 := funext fun (z : S384x384.Idx) => by
    show V c main_v62 (((cfg2.win 3).blk t).view.emb z) = _
    refine congrArg (V c main_v62) (funext fun a => Fin.ext ?_)
    match a with
    | ⟨0, _⟩ => show win2_3.index t (0 : Fin 2) * 384 + 1 * (z 0).val = (z 0).val; omega
    | ⟨1, _⟩ => show win2_3.index t (1 : Fin 2) * 384 + 1 * (z 1).val = (z 1).val; omega
  have hwr : (iblk2 V c 4 t : FVec Ideal S384x384 .bf16) = V c main_v64 := funext fun (z : S384x384.Idx) => by
    show V c main_v64 (((cfg2.win 4).blk t).view.emb z) = _
    refine congrArg (V c main_v64) (funext fun a => Fin.ext ?_)
    match a with
    | ⟨0, _⟩ => show win2_4.index t (0 : Fin 2) * 384 + 1 * (z 0).val = (z 0).val; omega
    | ⟨1, _⟩ => show win2_4.index t (1 : Fin 2) * 384 + 1 * (z 1).val = (z 1).val; omega
  have hb : (iblk2 V c 5 t : FVec Ideal S1x384 .f32) = V c main_v67 := funext fun (z : S1x384.Idx) => by
    show V c main_v67 (((cfg2.win 5).blk t).view.emb z) = _
    refine congrArg (V c main_v67) (funext fun a => Fin.ext ?_)
    match a with
    | ⟨0, _⟩ => show win2_5.index t (0 : Fin 2) * 1 + 1 * (z 0).val = (z 0).val; omega
    | ⟨1, _⟩ => show win2_5.index t (1 : Fin 2) * 384 + 1 * (z 1).val = (z 1).val; omega
  show k2_pay1 (F := Ideal) (iblk2 V c 0 t) (iblk2 V c 2 t) (iblk2 V c 1 t) (iblk2 V c 3 t) (iblk2 V c 4 t) (iblk2 V c 5 t) (ix2 p q)
    = G V c (((cfg2.win 6).blk t).view.emb (ix2 p q))
  rw [hout]
  refine (pay2_apply _ _ _ _ _ _ p q).trans ?_
  rw [blockLin_eq_arrLin (V c main_v60) (V c main_v50) (V c main_v12) _ _ _ _ _ _ (pt t) p q hs hx hiv, hwl, hwr, hb]
  rfl

/-- An index of the result array is in point `t`'s block iff each coordinate is in the block's range on its axis. -/
theorem mem_blk (t : Fin cfg2.N) (i : S50000x384.Idx) :
    i ∈ ((cfg2.win 6).blk t).view.set ↔ ∀ a : Fin 2, win2_6.index t a * S5000x384.size a ≤ (i a).val ∧ (i a).val < win2_6.index t a * S5000x384.size a + S5000x384.size a := by
  show i ∈ ((View.whole main_v68).slice (win2_6.rect t)).set ↔ _
  rw [View.set_slice_whole, Rect.mem_set_unit]
  exact Iff.rfl

/-- The ten blocks tile the result: row `r` is in block `r / 5000`. -/
theorem cover (i : S50000x384.Idx) : ∃ t : Fin cfg2.N, (cfg2.win 6).flush t = true ∧ i ∈ ((cfg2.win 6).blk t).view.set := by
  have hi0 : (i 0).val < 50000 := (i 0).isLt
  have hi1 : (i 1).val < 384 := (i 1).isLt
  have hN : cfg2.N = 10 := N_2
  have hN' : grid2.N = 10 := N_2
  refine ⟨⟨(i 0).val / 5000, by omega⟩, flush2_6 _, ?_⟩
  rw [mem_blk]
  obtain ⟨-, -, -, -, -, -, -, -, -, -, -, -, e60, e61⟩ := idx_facts ⟨(i 0).val / 5000, by omega⟩
  have e60' : win2_6.index ⟨(i 0).val / 5000, by omega⟩ (0 : Fin 2) = (i 0).val / 5000 := e60
  intro a
  match a with
  | ⟨0, _⟩ => show win2_6.index ⟨(i 0).val / 5000, by omega⟩ (0 : Fin 2) * 5000 ≤ (i 0).val ∧ (i 0).val < win2_6.index ⟨(i 0).val / 5000, by omega⟩ (0 : Fin 2) * 5000 + 5000; omega
  | ⟨1, _⟩ => show win2_6.index ⟨(i 0).val / 5000, by omega⟩ (1 : Fin 2) * 384 ≤ (i 1).val ∧ (i 1).val < win2_6.index ⟨(i 0).val / 5000, by omega⟩ (1 : Fin 2) * 384 + 384; omega

/-- THE RESULT ARRAY after the launch is the layer on the arrays the launch found. -/
theorem final (c : Dev nD) : (dat2 V c).arrAt 6 cfg2.N = G V c :=
  (dat2 V c).arrAt_eq_of_cover 6 (G V c) (fun t _ => flushed_eq V c t) (cover)

end Cert.KernelIdeal.Region2

end
-- ==== Proof.Region3.lean ====
/-
  Launch 3 of the layer kernel, read as one function of the arrays it finds.
  The grid has ten points; point `t` stages rows `5000 t … 5000 t + 4999` of the summed neighbour features, of the
  node features and of the inverse-degree column, the two weight matrices and the bias row whole, and writes back the
  same rows of the result.  So what point `t` writes back is block `t` of ONE array-level function — the layer on the
  whole arrays — and since the ten blocks tile the result's 50000 rows, the result array ends as that function.
-/
import proofs.«126454_j3831110828324_2_alg».proof.Proof.Gen.KernelIdeal.Frame
import proofs.«126454_j3831110828324_2_alg».proof.Proof.KPayload
import Idealize.ShloMosaic.Lib.Pipeline.Value

set_option maxRecDepth 16384

noncomputable section

open scoped BigOperators

namespace Cert.KernelIdeal.Region3

open Idealize.ShloMosaic Idealize.ShloMosaic.TcCoe Idealize.ShloMosaic.ValueIdx Idealize.SL.Sem
open Cert.KernelIdeal Cert.KernelIdeal.Gen Cert.KernelIdeal.Payload

variable (V : (c : Dev nD) → (b : Ref sig .tc) → Buf (Elt Ideal) ((c : Thread nD τ).loc b))

theorem hz : (![0, 0] : Fin 2 → Nat) = fun _ => 0 := funext fun a => by fin_cases a <;> rfl

/-- The layer on the arrays the launch finds. -/
def G (c : Dev nD) : FVec Ideal S50000x384 .f32 :=
  arrLast (V c main_v78) (V c main_v68) (V c main_v12) (V c main_v80) (V c main_v82) (V c main_v85)

/-- The printed index maps, decided over the grid: the three row-blocked inputs and the output sit at block `(t, 0)`,
    the weights and the bias at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- A grid point as a number below ten. -/
def pt (t : Fin cfg3.N) : Fin 10 := ⟨t.val, by have := t.isLt; have h : cfg3.N = 10 := N_3; omega⟩

set_option maxHeartbeats 1600000 in
/-- WHAT POINT `t` WRITES BACK is block `t` of the layer on the whole arrays. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x384) hz, View.ld_unit_zero (S := S5000x1) hz,
    View.ld_unit_zero (S := S384x384) hz, View.ld_unit_zero (S := S1x384) hz]
  obtain ⟨e00, e01, e10, e11, e20, e21, e30, e31, e40, e41, e50, e51, e60, e61⟩ := idx_facts t
  refine funext fun (y : S5000x384.Idx) => ?_
  obtain ⟨p, q, rfl⟩ : ∃ (p : Fin 5000) (q : Fin 384), y = ix2 p q := ⟨y 0, y 1, eq_ix2 y⟩
  have hout : ((cfg3.win 6).blk t).view.emb (ix2 p q) = (ix2 (rowOf (pt t) p) q : S50000x384.Idx) := by
    funext a; apply Fin.ext
    match a with
    | ⟨0, _⟩ => show win3_6.index t (0 : Fin 2) * 5000 + 1 * p.val = t.val * 5000 + p.val; omega
    | ⟨1, _⟩ => show win3_6.index t (1 : Fin 2) * 384 + 1 * q.val = q.val; omega
  have hs : ∀ k : Fin 384, iblk3 V c 0 t (ix2 p k) = V c main_v78 (ix2 (rowOf (pt t) p) k) := fun k => by
    show V c main_v78 (((cfg3.win 0).blk t).view.emb (ix2 p k)) = _
    refine congrArg (V c main_v78) (funext fun a => Fin.ext ?_)
    match a with
    | ⟨0, _⟩ => show win3_0.index t (0 : Fin 2) * 5000 + 1 * p.val = t.val * 5000 + p.val; omega
    | ⟨1, _⟩ => show win3_0.index t (1 : Fin 2) * 384 + 1 * k.val = k.val; omega
  have hx : ∀ k : Fin 384, iblk3 V c 1 t (ix2 p k) = V c main_v68 (ix2 (rowOf (pt t) p) k) := fun k => by
    show V c main_v68 (((cfg3.win 1).blk t).view.emb (ix2 p k)) = _
    refine congrArg (V c main_v68) (funext fun a => Fin.ext ?_)
    match a with
    | ⟨0, _⟩ => show win3_1.index t (0 : Fin 2) * 5000 + 1 * p.val = t.val * 5000 + p.val; omega
    | ⟨1, _⟩ => show win3_1.index t (1 : Fin 2) * 384 + 1 * k.val = k.val; omega
  have hiv : iblk3 V c 2 t (ix2 p (0 : Fin 1)) = V c main_v12 (ix2 (rowOf (pt t) p) (0 : Fin 1)) := by
    show V c main_v12 (((cfg3.win 2).blk t).view.emb (ix2 p (0 : Fin 1))) = _
    refine congrArg (V c main_v12) (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  have hwl : (iblk3 V c 3 t : FVec Ideal S384x384 .bf16) = V c main_v80 := funext fun (z : S384x384.Idx) => by
    show V c main_v80 (((cfg3.win 3).blk t).view.emb z) = _
    refine congrArg (V c main_v80) (funext fun a => Fin.ext ?_)
    match a with
    | ⟨0, _⟩ => show win3_3.index t (0 : Fin 2) * 384 + 1 * (z 0).val = (z 0).val; omega
    | ⟨1, _⟩ => show win3_3.index t (1 : Fin 2) * 384 + 1 * (z 1).val = (z 1).val; omega
  have hwr : (iblk3 V c 4 t : FVec Ideal S384x384 .bf16) = V c main_v82 := funext fun (z : S384x384.Idx) => by
    show V c main_v82 (((cfg3.win 4).blk t).view.emb z) = _
    refine congrArg (V c main_v82) (funext fun a => Fin.ext ?_)
    match a with
    | ⟨0, _⟩ => show win3_4.index t (0 : Fin 2) * 384 + 1 * (z 0).val = (z 0).val; omega
    | ⟨1, _⟩ => show win3_4.index t (1 : Fin 2) * 384 + 1 * (z 1).val = (z 1).val; omega
  have hb : (iblk3 V c 5 t : FVec Ideal S1x384 .f32) = V c main_v85 := funext fun (z : S1x384.Idx) => by
    show V c main_v85 (((cfg3.win 5).blk t).view.emb z) = _
    refine congrArg (V c main_v85) (funext fun a => Fin.ext ?_)
    match a with
    | ⟨0, _⟩ => show win3_5.index t (0 : Fin 2) * 1 + 1 * (z 0).val = (z 0).val; omega
    | ⟨1, _⟩ => show win3_5.index t (1 : Fin 2) * 384 + 1 * (z 1).val = (z 1).val; omega
  show k3_pay1 (F := Ideal) (iblk3 V c 0 t) (iblk3 V c 2 t) (iblk3 V c 1 t) (iblk3 V c 3 t) (iblk3 V c 4 t) (iblk3 V c 5 t) (ix2 p q)
    = G V c (((cfg3.win 6).blk t).view.emb (ix2 p q))
  rw [hout]
  refine (pay3_apply _ _ _ _ _ _ p q).trans ?_
  rw [blockLin_eq_arrLin (V c main_v78) (V c main_v68) (V c main_v12) _ _ _ _ _ _ (pt t) p q hs hx hiv, hwl, hwr, hb]
  unfold G arrLast
  rfl

/-- An index of the result array is in point `t`'s block iff each coordinate is in the block's range on its axis. -/
theorem mem_blk (t : Fin cfg3.N) (i : S50000x384.Idx) :
    i ∈ ((cfg3.win 6).blk t).view.set ↔ ∀ a : Fin 2, win3_6.index t a * S5000x384.size a ≤ (i a).val ∧ (i a).val < win3_6.index t a * S5000x384.size a + S5000x384.size a := by
  show i ∈ ((View.whole main_v86).slice (win3_6.rect t)).set ↔ _
  rw [View.set_slice_whole, Rect.mem_set_unit]
  exact Iff.rfl

/-- The ten blocks tile the result: row `r` is in block `r / 5000`. -/
theorem cover (i : S50000x384.Idx) : ∃ t : Fin cfg3.N, (cfg3.win 6).flush t = true ∧ i ∈ ((cfg3.win 6).blk t).view.set := by
  have hi0 : (i 0).val < 50000 := (i 0).isLt
  have hi1 : (i 1).val < 384 := (i 1).isLt
  have hN : cfg3.N = 10 := N_3
  have hN' : grid3.N = 10 := N_3
  refine ⟨⟨(i 0).val / 5000, by omega⟩, flush3_6 _, ?_⟩
  rw [mem_blk]
  obtain ⟨-, -, -, -, -, -, -, -, -, -, -, -, e60, e61⟩ := idx_facts ⟨(i 0).val / 5000, by omega⟩
  have e60' : win3_6.index ⟨(i 0).val / 5000, by omega⟩ (0 : Fin 2) = (i 0).val / 5000 := e60
  intro a
  match a with
  | ⟨0, _⟩ => show win3_6.index ⟨(i 0).val / 5000, by omega⟩ (0 : Fin 2) * 5000 ≤ (i 0).val ∧ (i 0).val < win3_6.index ⟨(i 0).val / 5000, by omega⟩ (0 : Fin 2) * 5000 + 5000; omega
  | ⟨1, _⟩ => show win3_6.index ⟨(i 0).val / 5000, by omega⟩ (1 : Fin 2) * 384 ≤ (i 1).val ∧ (i 1).val < win3_6.index ⟨(i 0).val / 5000, by omega⟩ (1 : Fin 2) * 384 + 384; omega

/-- THE RESULT ARRAY after the launch is the layer on the arrays the launch found. -/
theorem final (c : Dev nD) : (dat3 V c).arrAt 6 cfg3.N = G V c :=
  (dat3 V c).arrAt_eq_of_cover 6 (G V c) (fun t _ => flushed_eq V c t) (cover)

end Cert.KernelIdeal.Region3

end
-- ==== Proof.Spec.lean ====
/-
  The mathematics both programs compute, stated once over the extended reals and over literal shapes.

  A GraphSAGE layer with mean aggregation sends node features `x : [50000, 384]` to
      out[r, j] = Σ_k (s[r, k] · inv[r]) · Wl[p, k, j]  +  Σ_k x[r, k] · Wr[p, k, j]  +  B[p, j]
  where `s = agg x` is the sum of the neighbours' rows (a gather along the edges' sources followed by a
  scatter-add along their targets), `inv[r]` is one over the clamped in-degree of node `r`, and `p` is the
  layer.  Layers 0, 1, 2 end in `max · 0`; layer 3 does not.  The network is the four layers in a row.
  The aggregation and the inverse degree depend only on the edge list; they are parameters here, so that
  nothing below ever looks inside a gather or a scatter.
-/
import Idealize.ShloMosaic.PureOps.Ideal
import Idealize.ShloMosaic.Lib.ValueIdx

noncomputable section

open scoped BigOperators

namespace Sage

open Idealize.ShloMosaic Idealize.ShloMosaic.ValueIdx

/-- Node features, `[50000, 384]`. -/
abbrev Feat : Type := (⟨2, ![50000, 384]⟩ : Shape).Idx → EReal
/-- One value per node, `[50000]`. -/
abbrev PerNode : Type := (⟨1, ![50000]⟩ : Shape).Idx → EReal
/-- The four layers' square weights, `[4, 384, 384]`. -/
abbrev Weights : Type := (⟨3, ![4, 384, 384]⟩ : Shape).Idx → EReal
/-- The four layers' biases, `[4, 384]`. -/
abbrev Biases : Type := (⟨2, ![4, 384]⟩ : Shape).Idx → EReal

/-- The affine part of layer `p` at node `r`, feature `j`: the mean-aggregated neighbours through `Wl[p]`, plus
    the node's own features through `Wr[p]`, plus the bias. -/
def lin (p : Fin 4) (s x : Feat) (inv : PerNode) (Wl Wr : Weights) (B : Biases) (r : Fin 50000) (j : Fin 384) : EReal :=
  (∑ k : Fin 384, (s (ix2 r k) * inv (ix1 r)) * Wl (ix3 p k j))
    + (∑ k : Fin 384, x (ix2 r k) * Wr (ix3 p k j))
    + B (ix2 p j)

/-- A hidden layer: the affine part clamped below at zero. -/
def layerRelu (p : Fin 4) (s x : Feat) (inv : PerNode) (Wl Wr : Weights) (B : Biases) : Feat :=
  fun i => max (lin p s x inv Wl Wr B (i 0) (i 1)) 0

/-- The last layer: the affine part alone. -/
def layerLast (p : Fin 4) (s x : Feat) (inv : PerNode) (Wl Wr : Weights) (B : Biases) : Feat :=
  fun i => lin p s x inv Wl Wr B (i 0) (i 1)

/-- The four layers in a row, each aggregating the features the previous one produced. -/
def net (agg : Feat → Feat) (inv : PerNode) (x0 : Feat) (Wl Wr : Weights) (B : Biases) : Feat :=
  let x1 := layerRelu 0 (agg x0) x0 inv Wl Wr B
  let x2 := layerRelu 1 (agg x1) x1 inv Wl Wr B
  let x3 := layerRelu 2 (agg x2) x2 inv Wl Wr B
  layerLast 3 (agg x3) x3 inv Wl Wr B

end Sage

end
-- ==== Proof.KHost.lean ====
/-
  The host side of the idealized kernel, as values.
  Around its four launches the program computes, from the edge list `e : [2, 400000]`: the edges' sources and targets
  (rows 0 and 1 of `e`), the sources wrapped into range, the in-degrees by a scatter-add of ones, their clamped
  inverses as a column; it rounds the two weight stacks to bf16 (the identity on the extended reals); and before
  launch `p` it gathers the current features' rows at the sources and scatter-adds them at the targets (the neighbour
  sum), cuts out layer `p`'s two weight matrices and its bias as a row.
  Below: these values as functions; each read at an index; and, for each stretch of host operations and ANY buffer
  contents it starts from, what the stretch leaves in every buffer a later launch or stretch reads.
-/
import proofs.«126454_j3831110828324_2_alg».proof.Proof.Gen.KernelIdeal.Launch
import proofs.«126454_j3831110828324_2_alg».proof.Proof.KPayload
import proofs.«126454_j3831110828324_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HostVal

open Idealize.ShloMosaic Idealize.ShloMosaic.TcCoe Idealize.ShloMosaic.ValueIdx Idealize.SL.Sem Idealize.ShloMosaic.StableHlo
open Cert.KernelIdeal Cert.KernelIdeal.Gen Cert.KernelIdeal.Payload

/-- The edge list, `[2, 400000]` integers. -/
abbrev Edges : Type := (⟨S2x400000, .i32⟩ : BufTy).Contents (Elt Ideal)
/-- One integer per edge. -/
abbrev PerEdge : Type := (⟨S400000, .i32⟩ : BufTy).Contents (Elt Ideal)

/-- The edges' sources: row 0 of the edge list. -/
def src (e : Edges) : PerEdge :=
  shapeCast S400000 (extractStridedSlice S1x400000 ![0, 0] e slices_S2x400000_S1x400000_0_0) shapeCasts_S1x400000_S400000

/-- The edges' targets: row 1 of the edge list. -/
def dst (e : Edges) : PerEdge :=
  shapeCast S400000 (extractStridedSlice S1x400000 ![1, 0] e slices_S2x400000_S1x400000_1_0) shapeCasts_S1x400000_S400000

/-- The neighbour sum: the rows of `x` at the sources (a negative source wrapped by 50000), added up at the targets. -/
def aggOf (i1 i3 : PerEdge) (x : FVec Ideal S50000x384 .f32) : FVec Ideal S50000x384 .f32 :=
  Host.scatterAdd (F := Ideal) (φ := .f32) scatter_S50000x384_S400000x1_S400000x384_1_0_0_1
    (broadcastInDim S50000x384 ![] bcast_S_S50000x384 (constant S_ .f32 0x00000000#32))
    (broadcastInDim S400000x1 ![0] bcast_S400000_S400000x1_0 i3)
    (Host.gather gather_S50000x384_S400000x1_S400000x384_1_0_n_n_0_1_1384 x
      (broadcastInDim S400000x1 ![0] bcast_S400000_S400000x1_0
        (select (cmpi .slt i1 (broadcastInDim S400000 ![] bcast_S_S400000 (constantI S_ 32 0#32)))
          (addi i1 (broadcastInDim S400000 ![] bcast_S_S400000 (constantI S_ 32 50000#32))) i1)))

/-- One over the in-degree clamped below at one. -/
def invOf (i3 : PerEdge) : FVec Ideal S50000 .f32 :=
  Host.divf (F := Ideal) (φ := .f32) (broadcastInDim S50000 ![] bcast_S_S50000 (constant S_ .f32 0x3F800000#32))
    (maximumf
      (Host.scatterAdd (F := Ideal) (φ := .f32) scatter_S50000_S400000x1_S400000_n_0_0_1
        (broadcastInDim S50000 ![] bcast_S_S50000 (constant S_ .f32 0x00000000#32))
        (broadcastInDim S400000x1 ![0] bcast_S400000_S400000x1_0 i3)
        (broadcastInDim S400000 ![] bcast_S_S400000 (constant S_ .f32 0x3F800000#32)))
      (broadcastInDim S50000 ![] bcast_S_S50000 (constant S_ .f32 0x3F800000#32)))

/-- A per-node value as a column. -/
def colOf (iv : FVec Ideal S50000 .f32) : FVec Ideal S50000x1 .f32 :=
  broadcastInDim S50000x1 ![0] bcast_S50000_S50000x1_0 iv

/-- Layer `p`'s matrix cut out of a stack of four. -/
def matOf (p : Nat) (h : S4x384x384.Slices ![p, 0, 0] S1x384x384) (w : FVec Ideal S4x384x384 .bf16) : FVec Ideal S384x384 .bf16 :=
  shapeCast S384x384 (extractStridedSlice S1x384x384 ![p, 0, 0] w h) shapeCasts_S1x384x384_S384x384

/-- Layer `p`'s bias cut out of the four and laid as a row. -/
def rowOfBias (p : Nat) (h : S4x384.Slices ![p, 0] S1x384) (b : FVec Ideal S4x384 .f32) : FVec Ideal S1x384 .f32 :=
  broadcastInDim S1x384 ![1] bcast_S384_S1x384_1 (shapeCast S384 (extractStridedSlice S1x384 ![p, 0] b h) shapeCasts_S1x384_S384)

/-! ## Read at an index -/

/-- The column at row `r` is the per-node value at `r`. -/
theorem colOf_apply (iv : FVec Ideal S50000 .f32) (r : Fin 50000) : colOf iv (ix2 r (0 : Fin 1)) = iv (ix1 r) := by
  unfold colOf
  refine broadcastInDim_apply _ bcast_S50000_S50000x1_0 iv (ix2 r (0 : Fin 1)) (ix1 r) fun a => ?_
  match a with
  | ⟨0, _⟩ => rfl

/-- Layer `p`'s matrix at `(k, j)` is the stack at `(p, k, j)`. -/
theorem matOf_apply (p : Fin 4) (h : S4x384x384.Slices ![p.val, 0, 0] S1x384x384) (w : FVec Ideal S4x384x384 .bf16) (k j : Fin 384) :
    matOf p.val h w (ix2 k j) = w (ix3 p k j) := by
  unfold matOf
  refine (shapeCast_1ab_ab_apply _ shapeCasts_S1x384x384_S384x384 k j).trans ?_
  refine extractStridedSlice_apply ![p.val, 0, 0] w h (ix3 (0 : Fin 1) k j) (ix3 p k j) fun a => ?_
  match a with
  | ⟨0, _⟩ => show p.val = p.val + 0; omega
  | ⟨1, _⟩ => show k.val = 0 + k.val; omega
  | ⟨2, _⟩ => show j.val = 0 + j.val; omega

/-- Layer `p`'s bias row at column `j` is the biases at `(p, j)`. -/
theorem rowOfBias_apply (p : Fin 4) (h : S4x384.Slices ![p.val, 0] S1x384) (b : FVec Ideal S4x384 .f32) (j : Fin 384) :
    rowOfBias p.val h b (ix2 (0 : Fin 1) j) = b (ix2 p j) := by
  unfold rowOfBias
  refine (broadcastInDim_apply _ bcast_S384_S1x384_1 _ (ix2 (0 : Fin 1) j) (ix1 j) fun a => ?_).trans ?_
  · match a with
    | ⟨0, _⟩ => rfl
  refine (shapeCast_1a_a_apply _ shapeCasts_S1x384_S384 j).trans ?_
  refine extractStridedSlice_apply ![p.val, 0] b h (ix2 (0 : Fin 1) j) (ix2 p j) fun a => ?_
  match a with
  | ⟨0, _⟩ => show p.val = p.val + 0; omega
  | ⟨1, _⟩ => show j.val = 0 + j.val; omega

/-- The layer on the arrays a launch finds is the specification's layer `p`: the column read along its rows, the
    matrices and the bias row read out of their stacks, the rounding of the weights the identity. -/
theorem arrLin_eq_lin (p : Fin 4) (hw : S4x384x384.Slices ![p.val, 0, 0] S1x384x384) (hb : S4x384.Slices ![p.val, 0] S1x384)
    (s x : FVec Ideal S50000x384 .f32) (iv : FVec Ideal S50000 .f32) (Wl Wr : FVec Ideal S4x384x384 .f32) (B : FVec Ideal S4x384 .f32)
    (r : Fin 50000) (j : Fin 384) :
    arrLin s x (colOf iv) (matOf p.val hw (truncf .bf16 Wl bitsLt_bf16_f32)) (matOf p.val hw (truncf .bf16 Wr bitsLt_bf16_f32))
        (rowOfBias p.val hb B) r j
      = Sage.lin p s x iv Wl Wr B r j := by
  unfold arrLin Sage.lin
  rw [colOf_apply, rowOfBias_apply]
  refine congrArg (· + B (ix2 p j)) (congr (congrArg HAdd.hAdd ?_) ?_)
  · exact Finset.sum_congr rfl fun k _ => by rw [matOf_apply]; rfl
  · exact Finset.sum_congr rfl fun k _ => by rw [matOf_apply]; rfl

end Cert.KernelIdeal.HostVal

end
-- ==== Proof.KStretch.lean ====
/-
  What each stretch of host operations leaves, from ANY buffer contents `W` it starts from: the values of module
  HostVal at the buffers a launch or a later stretch reads, and every such buffer the stretch does not write as it was.
  Each is the stretch's operations applied in order, read at one buffer.
-/
import proofs.«126454_j3831110828324_2_alg».proof.Proof.KHost

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen Cert.KernelIdeal.HostVal

variable (W : Valuation τ sig (Elt Ideal))

/-! ## Before the first launch -/

theorem h0_v1 : StableHlo.after hostOps0 W (Proc.devRef .tc main_v1) = src (W (Proc.devRef .tc main_arg1)) := by
  after_results_simp
  all_goals (try unfold src)
  all_goals rfl

theorem h0_v3 : StableHlo.after hostOps0 W (Proc.devRef .tc main_v3) = dst (W (Proc.devRef .tc main_arg1)) := by
  after_results_simp
  all_goals (try unfold dst)
  all_goals rfl

theorem h0_v12 : StableHlo.after hostOps0 W (Proc.devRef .tc main_v12) = colOf (invOf (dst (W (Proc.devRef .tc main_arg1)))) := by
  after_results_simp
  all_goals (try unfold colOf invOf dst)
  all_goals rfl

theorem h0_v13 : StableHlo.after hostOps0 W (Proc.devRef .tc main_v13) = (truncf (F := Ideal) .bf16 (W (Proc.devRef .tc main_arg2) : FVec Ideal S4x384x384 .f32) bitsLt_bf16_f32 : FVec Ideal S4x384x384 .bf16) := by
  after_results_simp
  all_goals rfl

theorem h0_v14 : StableHlo.after hostOps0 W (Proc.devRef .tc main_v14) = (truncf (F := Ideal) .bf16 (W (Proc.devRef .tc main_arg3) : FVec Ideal S4x384x384 .f32) bitsLt_bf16_f32 : FVec Ideal S4x384x384 .bf16) := by
  after_results_simp
  all_goals rfl

theorem h0_arg4 : StableHlo.after hostOps0 W (Proc.devRef .tc main_arg4) = W (Proc.devRef .tc main_arg4) := by
  after_results_simp
  all_goals rfl

theorem h0_arg0 : StableHlo.after hostOps0 W (Proc.devRef .tc main_arg0) = W (Proc.devRef .tc main_arg0) := by
  after_results_simp
  all_goals rfl

theorem h0_v24 : StableHlo.after hostOps0 W (Proc.devRef .tc main_v24) = aggOf (src (W (Proc.devRef .tc main_arg1))) (dst (W (Proc.devRef .tc main_arg1))) (W (Proc.devRef .tc main_arg0)) := by
  after_results_simp
  all_goals (try unfold aggOf src dst)
  all_goals rfl

theorem h0_v26 : StableHlo.after hostOps0 W (Proc.devRef .tc main_v26) = matOf 0 slices_S4x384x384_S1x384x384_0_0_0 (truncf .bf16 (W (Proc.devRef .tc main_arg2)) bitsLt_bf16_f32) := by
  after_results_simp
  all_goals (try unfold matOf)
  all_goals rfl

theorem h0_v28 : StableHlo.after hostOps0 W (Proc.devRef .tc main_v28) = matOf 0 slices_S4x384x384_S1x384x384_0_0_0 (truncf .bf16 (W (Proc.devRef .tc main_arg3)) bitsLt_bf16_f32) := by
  after_results_simp
  all_goals (try unfold matOf)
  all_goals rfl

theorem h0_v31 : StableHlo.after hostOps0 W (Proc.devRef .tc main_v31) = rowOfBias 0 slices_S4x384_S1x384_0_0 (W (Proc.devRef .tc main_arg4)) := by
  after_results_simp
  all_goals (try unfold rowOfBias)
  all_goals rfl

/-! ## Before launch 1 -/

theorem h1_v1 : StableHlo.after hostOps1 W (Proc.devRef .tc main_v1) = W (Proc.devRef .tc main_v1) := by
  after_results_simp
  all_goals rfl

theorem h1_v3 : StableHlo.after hostOps1 W (Proc.devRef .tc main_v3) = W (Proc.devRef .tc main_v3) := by
  after_results_simp
  all_goals rfl

theorem h1_v12 : StableHlo.after hostOps1 W (Proc.devRef .tc main_v12) = W (Proc.devRef .tc main_v12) := by
  after_results_simp
  all_goals rfl

theorem h1_v13 : StableHlo.after hostOps1 W (Proc.devRef .tc main_v13) = W (Proc.devRef .tc main_v13) := by
  after_results_simp
  all_goals rfl

theorem h1_v14 : StableHlo.after hostOps1 W (Proc.devRef .tc main_v14) = W (Proc.devRef .tc main_v14) := by
  after_results_simp
  all_goals rfl

theorem h1_arg4 : StableHlo.after hostOps1 W (Proc.devRef .tc main_arg4) = W (Proc.devRef .tc main_arg4) := by
  after_results_simp
  all_goals rfl

theorem h1_v32 : StableHlo.after hostOps1 W (Proc.devRef .tc main_v32) = W (Proc.devRef .tc main_v32) := by
  after_results_simp
  all_goals rfl

theorem h1_s : StableHlo.after hostOps1 W (Proc.devRef .tc main_v42) = aggOf (W (Proc.devRef .tc main_v1)) (W (Proc.devRef .tc main_v3)) (W (Proc.devRef .tc main_v32)) := by
  after_results_simp
  all_goals (try unfold aggOf)
  all_goals rfl

theorem h1_wl : StableHlo.after hostOps1 W (Proc.devRef .tc main_v44) = matOf 1 slices_S4x384x384_S1x384x384_1_0_0 (W (Proc.devRef .tc main_v13)) := by
  after_results_simp
  all_goals (try unfold matOf)
  all_goals rfl

theorem h1_wr : StableHlo.after hostOps1 W (Proc.devRef .tc main_v46) = matOf 1 slices_S4x384x384_S1x384x384_1_0_0 (W (Proc.devRef .tc main_v14)) := by
  after_results_simp
  all_goals (try unfold matOf)
  all_goals rfl

theorem h1_b : StableHlo.after hostOps1 W (Proc.devRef .tc main_v49) = rowOfBias 1 slices_S4x384_S1x384_1_0 (W (Proc.devRef .tc main_arg4)) := by
  after_results_simp
  all_goals (try unfold rowOfBias)
  all_goals rfl

/-! ## Before launch 2 -/

theorem h2_v1 : StableHlo.after hostOps2 W (Proc.devRef .tc main_v1) = W (Proc.devRef .tc main_v1) := by
  after_results_simp
  all_goals rfl

theorem h2_v3 : StableHlo.after hostOps2 W (Proc.devRef .tc main_v3) = W (Proc.devRef .tc main_v3) := by
  after_results_simp
  all_goals rfl

theorem h2_v12 : StableHlo.after hostOps2 W (Proc.devRef .tc main_v12) = W (Proc.devRef .tc main_v12) := by
  after_results_simp
  all_goals rfl

theorem h2_v13 : StableHlo.after hostOps2 W (Proc.devRef .tc main_v13) = W (Proc.devRef .tc main_v13) := by
  after_results_simp
  all_goals rfl

theorem h2_v14 : StableHlo.after hostOps2 W (Proc.devRef .tc main_v14) = W (Proc.devRef .tc main_v14) := by
  after_results_simp
  all_goals rfl

theorem h2_arg4 : StableHlo.after hostOps2 W (Proc.devRef .tc main_arg4) = W (Proc.devRef .tc main_arg4) := by
  after_results_simp
  all_goals rfl

theorem h2_v50 : StableHlo.after hostOps2 W (Proc.devRef .tc main_v50) = W (Proc.devRef .tc main_v50) := by
  after_results_simp
  all_goals rfl

theorem h2_s : StableHlo.after hostOps2 W (Proc.devRef .tc main_v60) = aggOf (W (Proc.devRef .tc main_v1)) (W (Proc.devRef .tc main_v3)) (W (Proc.devRef .tc main_v50)) := by
  after_results_simp
  all_goals (try unfold aggOf)
  all_goals rfl

theorem h2_wl : StableHlo.after hostOps2 W (Proc.devRef .tc main_v62) = matOf 2 slices_S4x384x384_S1x384x384_2_0_0 (W (Proc.devRef .tc main_v13)) := by
  after_results_simp
  all_goals (try unfold matOf)
  all_goals rfl

theorem h2_wr : StableHlo.after hostOps2 W (Proc.devRef .tc main_v64) = matOf 2 slices_S4x384x384_S1x384x384_2_0_0 (W (Proc.devRef .tc main_v14)) := by
  after_results_simp
  all_goals (try unfold matOf)
  all_goals rfl

theorem h2_b : StableHlo.after hostOps2 W (Proc.devRef .tc main_v67) = rowOfBias 2 slices_S4x384_S1x384_2_0 (W (Proc.devRef .tc main_arg4)) := by
  after_results_simp
  all_goals (try unfold rowOfBias)
  all_goals rfl

/-! ## Before launch 3 -/

theorem h3_v1 : StableHlo.after hostOps3 W (Proc.devRef .tc main_v1) = W (Proc.devRef .tc main_v1) := by
  after_results_simp
  all_goals rfl

theorem h3_v3 : StableHlo.after hostOps3 W (Proc.devRef .tc main_v3) = W (Proc.devRef .tc main_v3) := by
  after_results_simp
  all_goals rfl

theorem h3_v12 : StableHlo.after hostOps3 W (Proc.devRef .tc main_v12) = W (Proc.devRef .tc main_v12) := by
  after_results_simp
  all_goals rfl

theorem h3_v13 : StableHlo.after hostOps3 W (Proc.devRef .tc main_v13) = W (Proc.devRef .tc main_v13) := by
  after_results_simp
  all_goals rfl

theorem h3_v14 : StableHlo.after hostOps3 W (Proc.devRef .tc main_v14) = W (Proc.devRef .tc main_v14) := by
  after_results_simp
  all_goals rfl

theorem h3_arg4 : StableHlo.after hostOps3 W (Proc.devRef .tc main_arg4) = W (Proc.devRef .tc main_arg4) := by
  after_results_simp
  all_goals rfl

theorem h3_v68 : StableHlo.after hostOps3 W (Proc.devRef .tc main_v68) = W (Proc.devRef .tc main_v68) := by
  after_results_simp
  all_goals rfl

theorem h3_s : StableHlo.after hostOps3 W (Proc.devRef .tc main_v78) = aggOf (W (Proc.devRef .tc main_v1)) (W (Proc.devRef .tc main_v3)) (W (Proc.devRef .tc main_v68)) := by
  after_results_simp
  all_goals (try unfold aggOf)
  all_goals rfl

theorem h3_wl : StableHlo.after hostOps3 W (Proc.devRef .tc main_v80) = matOf 3 slices_S4x384x384_S1x384x384_3_0_0 (W (Proc.devRef .tc main_v13)) := by
  after_results_simp
  all_goals (try unfold matOf)
  all_goals rfl

theorem h3_wr : StableHlo.after hostOps3 W (Proc.devRef .tc main_v82) = matOf 3 slices_S4x384x384_S1x384x384_3_0_0 (W (Proc.devRef .tc main_v14)) := by
  after_results_simp
  all_goals (try unfold matOf)
  all_goals rfl

theorem h3_b : StableHlo.after hostOps3 W (Proc.devRef .tc main_v85) = rowOfBias 3 slices_S4x384_S1x384_3_0 (W (Proc.devRef .tc main_arg4)) := by
  after_results_simp
  all_goals (try unfold rowOfBias)
  all_goals rfl

end Cert.KernelIdeal.Stretch

end
-- ==== Proof.KChain.lean ====
/-
  The idealized kernel's result, as a function of its arguments.
  The buffer contents at the program's segment boundaries are a fold: a stretch of host operations, then a launch,
  four times.  Six buffers computed before the first launch are never written again — the edges' sources and targets,
  the inverse-degree column, the two rounded weight stacks, and the bias argument — so every later stretch and launch
  finds them as the first stretch left them.  Each launch leaves in its result buffer the layer of the features the
  previous launch left (the node features themselves for the first), with the neighbour sum taken by the stretch
  before it.  Four layers in a row are the network.
-/
import proofs.«126454_j3831110828324_2_alg».proof.Proof.Gen.KernelIdeal.Frame
import proofs.«126454_j3831110828324_2_alg».proof.Proof.Region0
import proofs.«126454_j3831110828324_2_alg».proof.Proof.Region1
import proofs.«126454_j3831110828324_2_alg».proof.Proof.Region2
import proofs.«126454_j3831110828324_2_alg».proof.Proof.Region3
import proofs.«126454_j3831110828324_2_alg».proof.Proof.KStretch
import proofs.«126454_j3831110828324_2_alg».proof.Proof.Spec

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.HostVal Cert.KernelIdeal.Payload

variable (m : (ℓ : Loc nD τ sig) → Buf (Elt Ideal) ℓ) (ρ : Dev nD → PrngReg) (c : Dev nD)

/-- The arguments as launched, on core `c`: node features, edge list, the two weight stacks, the biases. -/
abbrev a0 : FVec Ideal S50000x384 .f32 := m ((c : Thread nD τ).loc main_arg0)
abbrev aE : Edges := m ((c : Thread nD τ).loc main_arg1)
abbrev a2 : FVec Ideal S4x384x384 .f32 := m ((c : Thread nD τ).loc main_arg2)
abbrev a3 : FVec Ideal S4x384x384 .f32 := m ((c : Thread nD τ).loc main_arg3)
abbrev a4 : FVec Ideal S4x384 .f32 := m ((c : Thread nD τ).loc main_arg4)

/-- The neighbour sum along the launched edge list. -/
def AGG : FVec Ideal S50000x384 .f32 → FVec Ideal S50000x384 .f32 := aggOf (src (aE m c)) (dst (aE m c))
/-- The inverse clamped in-degrees of the launched edge list. -/
def INV : FVec Ideal S50000 .f32 := invOf (dst (aE m c))

/-- The six buffers every stretch and launch after the first stretch finds unchanged. -/
structure Kept (W : Valuation τ sig (Elt Ideal)) : Prop where
  v1 : W (Proc.devRef .tc main_v1) = src (aE m c)
  v3 : W (Proc.devRef .tc main_v3) = dst (aE m c)
  v12 : W (Proc.devRef .tc main_v12) = colOf (INV m c)
  v13 : W (Proc.devRef .tc main_v13) = truncf .bf16 (a2 m c) bitsLt_bf16_f32
  v14 : W (Proc.devRef .tc main_v14) = truncf .bf16 (a3 m c) bitsLt_bf16_f32
  b4 : W (Proc.devRef .tc main_arg4) = a4 m c

/-- The first stretch computes them from the launched arguments. -/
theorem kept1 : Kept m c (W1 m ρ c) where
  v1 := Stretch.h0_v1 (W0 m ρ c)
  v3 := Stretch.h0_v3 (W0 m ρ c)
  v12 := Stretch.h0_v12 (W0 m ρ c)
  v13 := Stretch.h0_v13 (W0 m ρ c)
  v14 := Stretch.h0_v14 (W0 m ρ c)
  b4 := Stretch.h0_arg4 (W0 m ρ c)

/-- Launch 0 writes none of the kept buffers (it only reads the inverse-degree column). -/
theorem kept_region0 (h : Kept m c (W1 m ρ c)) : Kept m c (W2 m ρ c) where
  v1 := (W2_of_ne m ρ c main_v1 (by decide)).trans h.v1
  v3 := (W2_of_ne m ρ c main_v3 (by decide)).trans h.v3
  v12 := ((W2_arr m ρ c 2).trans (((dat0 (V1 m ρ) c).arrAt_in 2 rfl _).trans (A_eq0 (V1 m ρ) c 2))).trans h.v12
  v13 := (W2_of_ne m ρ c main_v13 (by decide)).trans h.v13
  v14 := (W2_of_ne m ρ c main_v14 (by decide)).trans h.v14
  b4 := (W2_of_ne m ρ c main_arg4 (by decide)).trans h.b4

/-- Launch 1 writes none of the kept buffers (it only reads the inverse-degree column). -/
theorem kept_region1 (h : Kept m c (W3 m ρ c)) : Kept m c (W4 m ρ c) where
  v1 := (W4_of_ne m ρ c main_v1 (by decide)).trans h.v1
  v3 := (W4_of_ne m ρ c main_v3 (by decide)).trans h.v3
  v12 := ((W4_arr m ρ c 2).trans (((dat1 (V3 m ρ) c).arrAt_in 2 rfl _).trans (A_eq1 (V3 m ρ) c 2))).trans h.v12
  v13 := (W4_of_ne m ρ c main_v13 (by decide)).trans h.v13
  v14 := (W4_of_ne m ρ c main_v14 (by decide)).trans h.v14
  b4 := (W4_of_ne m ρ c main_arg4 (by decide)).trans h.b4

/-- Launch 2 writes none of the kept buffers (it only reads the inverse-degree column). -/
theorem kept_region2 (h : Kept m c (W5 m ρ c)) : Kept m c (W6 m ρ c) where
  v1 := (W6_of_ne m ρ c main_v1 (by decide)).trans h.v1
  v3 := (W6_of_ne m ρ c main_v3 (by decide)).trans h.v3
  v12 := ((W6_arr m ρ c 2).trans (((dat2 (V5 m ρ) c).arrAt_in 2 rfl _).trans (A_eq2 (V5 m ρ) c 2))).trans h.v12
  v13 := (W6_of_ne m ρ c main_v13 (by decide)).trans h.v13
  v14 := (W6_of_ne m ρ c main_v14 (by decide)).trans h.v14
  b4 := (W6_of_ne m ρ c main_arg4 (by decide)).trans h.b4

/-- The stretch before launch 1 writes none of the kept buffers. -/
theorem kept_host1 (W : Valuation τ sig (Elt Ideal)) (h : Kept m c W) : Kept m c (StableHlo.after hostOps1 W) where
  v1 := (Stretch.h1_v1 W).trans h.v1
  v3 := (Stretch.h1_v3 W).trans h.v3
  v12 := (Stretch.h1_v12 W).trans h.v12
  v13 := (Stretch.h1_v13 W).trans h.v13
  v14 := (Stretch.h1_v14 W).trans h.v14
  b4 := (Stretch.h1_arg4 W).trans h.b4

/-- The stretch before launch 2 writes none of the kept buffers. -/
theorem kept_host2 (W : Valuation τ sig (Elt Ideal)) (h : Kept m c W) : Kept m c (StableHlo.after hostOps2 W) where
  v1 := (Stretch.h2_v1 W).trans h.v1
  v3 := (Stretch.h2_v3 W).trans h.v3
  v12 := (Stretch.h2_v12 W).trans h.v12
  v13 := (Stretch.h2_v13 W).trans h.v13
  v14 := (Stretch.h2_v14 W).trans h.v14
  b4 := (Stretch.h2_arg4 W).trans h.b4

/-- The stretch before launch 3 writes none of the kept buffers. -/
theorem kept_host3 (W : Valuation τ sig (Elt Ideal)) (h : Kept m c W) : Kept m c (StableHlo.after hostOps3 W) where
  v1 := (Stretch.h3_v1 W).trans h.v1
  v3 := (Stretch.h3_v3 W).trans h.v3
  v12 := (Stretch.h3_v12 W).trans h.v12
  v13 := (Stretch.h3_v13 W).trans h.v13
  v14 := (Stretch.h3_v14 W).trans h.v14
  b4 := (Stretch.h3_arg4 W).trans h.b4

/-- Launch 0 leaves layer 0 of the launched node features. -/
theorem out0 : W2 m ρ c (Proc.devRef .tc main_v32) = Sage.layerRelu 0 (AGG m c (a0 m c)) (a0 m c) (INV m c) (a2 m c) (a3 m c) (a4 m c) := by
  refine (W2_arr m ρ c 6).trans ((Region0.final (V1 m ρ) c).trans ?_)
  unfold Region0.G
  show arrRelu (StableHlo.after hostOps0 (W0 m ρ c) (Proc.devRef .tc main_v24)) (StableHlo.after hostOps0 (W0 m ρ c) (Proc.devRef .tc main_arg0))
      (StableHlo.after hostOps0 (W0 m ρ c) (Proc.devRef .tc main_v12)) (StableHlo.after hostOps0 (W0 m ρ c) (Proc.devRef .tc main_v26))
      (StableHlo.after hostOps0 (W0 m ρ c) (Proc.devRef .tc main_v28)) (StableHlo.after hostOps0 (W0 m ρ c) (Proc.devRef .tc main_v31)) = _
  rw [Stretch.h0_v24, Stretch.h0_arg0, Stretch.h0_v12, Stretch.h0_v26, Stretch.h0_v28, Stretch.h0_v31]
  funext i
  unfold arrRelu Sage.layerRelu AGG INV
  exact congrArg (max · 0) (arrLin_eq_lin 0 _ _ _ _ _ _ _ _ (i 0) (i 1))

/-- Launch 1 leaves layer 1 of the features it found. -/
theorem out1 (X : FVec Ideal S50000x384 .f32) (hK : Kept m c (W2 m ρ c)) (hX : W2 m ρ c (Proc.devRef .tc main_v32) = X) :
    W4 m ρ c (Proc.devRef .tc main_v50) = Sage.layerRelu 1 (AGG m c X) X (INV m c) (a2 m c) (a3 m c) (a4 m c) := by
  refine (W4_arr m ρ c 6).trans ((Region1.final (V3 m ρ) c).trans ?_)
  unfold Region1.G
  show arrRelu (StableHlo.after hostOps1 (W2 m ρ c) (Proc.devRef .tc main_v42)) (StableHlo.after hostOps1 (W2 m ρ c) (Proc.devRef .tc main_v32))
      (StableHlo.after hostOps1 (W2 m ρ c) (Proc.devRef .tc main_v12)) (StableHlo.after hostOps1 (W2 m ρ c) (Proc.devRef .tc main_v44))
      (StableHlo.after hostOps1 (W2 m ρ c) (Proc.devRef .tc main_v46)) (StableHlo.after hostOps1 (W2 m ρ c) (Proc.devRef .tc main_v49)) = _
  rw [Stretch.h1_s, Stretch.h1_v32, Stretch.h1_v12, Stretch.h1_wl, Stretch.h1_wr, Stretch.h1_b,
    hK.v1, hK.v3, hK.v12, hK.v13, hK.v14, hK.b4, hX]
  funext i
  unfold arrRelu Sage.layerRelu AGG INV
  exact congrArg (max · 0) (arrLin_eq_lin 1 _ _ _ _ _ _ _ _ (i 0) (i 1))

/-- Launch 2 leaves layer 2 of the features it found. -/
theorem out2 (X : FVec Ideal S50000x384 .f32) (hK : Kept m c (W4 m ρ c)) (hX : W4 m ρ c (Proc.devRef .tc main_v50) = X) :
    W6 m ρ c (Proc.devRef .tc main_v68) = Sage.layerRelu 2 (AGG m c X) X (INV m c) (a2 m c) (a3 m c) (a4 m c) := by
  refine (W6_arr m ρ c 6).trans ((Region2.final (V5 m ρ) c).trans ?_)
  unfold Region2.G
  show arrRelu (StableHlo.after hostOps2 (W4 m ρ c) (Proc.devRef .tc main_v60)) (StableHlo.after hostOps2 (W4 m ρ c) (Proc.devRef .tc main_v50))
      (StableHlo.after hostOps2 (W4 m ρ c) (Proc.devRef .tc main_v12)) (StableHlo.after hostOps2 (W4 m ρ c) (Proc.devRef .tc main_v62))
      (StableHlo.after hostOps2 (W4 m ρ c) (Proc.devRef .tc main_v64)) (StableHlo.after hostOps2 (W4 m ρ c) (Proc.devRef .tc main_v67)) = _
  rw [Stretch.h2_s, Stretch.h2_v50, Stretch.h2_v12, Stretch.h2_wl, Stretch.h2_wr, Stretch.h2_b,
    hK.v1, hK.v3, hK.v12, hK.v13, hK.v14, hK.b4, hX]
  funext i
  unfold arrRelu Sage.layerRelu AGG INV
  exact congrArg (max · 0) (arrLin_eq_lin 2 _ _ _ _ _ _ _ _ (i 0) (i 1))

/-- Launch 3 leaves layer 3 of the features it found. -/
theorem out3 (X : FVec Ideal S50000x384 .f32) (hK : Kept m c (W6 m ρ c)) (hX : W6 m ρ c (Proc.devRef .tc main_v68) = X) :
    W8 m ρ c (Proc.devRef .tc main_v86) = Sage.layerLast 3 (AGG m c X) X (INV m c) (a2 m c) (a3 m c) (a4 m c) := by
  refine (W8_arr m ρ c 6).trans ((Region3.final (V7 m ρ) c).trans ?_)
  unfold Region3.G
  show arrLast (StableHlo.after hostOps3 (W6 m ρ c) (Proc.devRef .tc main_v78)) (StableHlo.after hostOps3 (W6 m ρ c) (Proc.devRef .tc main_v68))
      (StableHlo.after hostOps3 (W6 m ρ c) (Proc.devRef .tc main_v12)) (StableHlo.after hostOps3 (W6 m ρ c) (Proc.devRef .tc main_v80))
      (StableHlo.after hostOps3 (W6 m ρ c) (Proc.devRef .tc main_v82)) (StableHlo.after hostOps3 (W6 m ρ c) (Proc.devRef .tc main_v85)) = _
  rw [Stretch.h3_s, Stretch.h3_v68, Stretch.h3_v12, Stretch.h3_wl, Stretch.h3_wr, Stretch.h3_b,
    hK.v1, hK.v3, hK.v12, hK.v13, hK.v14, hK.b4, hX]
  funext i
  unfold arrLast Sage.layerLast AGG INV
  exact arrLin_eq_lin 3 _ _ _ _ _ _ _ _ (i 0) (i 1)

/-- THE RESULT: the last boundary's contents at the result buffer are the network of the launched arguments. -/
theorem result : W8 m ρ c (Proc.devRef .tc main_v86) = Sage.net (AGG m c) (INV m c) (a0 m c) (a2 m c) (a3 m c) (a4 m c) := by
  have k1 := kept1 m ρ c
  have k2 := kept_region0 m ρ c k1
  have k3 : Kept m c (W3 m ρ c) := kept_host1 m c _ k2
  have k4 := kept_region1 m ρ c k3
  have k5 : Kept m c (W5 m ρ c) := kept_host2 m c _ k4
  have k6 := kept_region2 m ρ c k5
  have x1 := out0 m ρ c
  have x2 := out1 m ρ c _ k2 x1
  have x3 := out2 m ρ c _ k4 x2
  exact out3 m ρ c _ k6 x3

end Cert.KernelIdeal.Chain

end
-- ==== Proof.RefLayer.lean ====
/-
  The reference's four layers, each read index by index against the specification `Sage`.

  A layer of the reference is  (s · inv) @ Wl[p] + B[p] + x @ Wr[p]  (then a maximum with zeros for layers 0, 1, 2),
  where `s` is the aggregated features and `x` the layer's input. The lemmas here are stated over arbitrary `s` and `x`,
  so nothing in them looks inside a gather or a scatter; the network theorem instantiates them.
-/
import proofs.«126454_j3831110828324_2_alg».proof.Proof.Gen.ReferenceIdeal.Read
import proofs.«126454_j3831110828324_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- A row-by-matrix product on the host, at the ideal values, read at row `r` and column `j`: the sum over the
    contracted axis of the left operand's row times the right operand's column. -/
theorem dot_apply (l : FVec Ideal S50000x384 .f32) (w : FVec Ideal S384x384 .f32) (r : Fin 50000) (j : Fin 384) :
    Host.dotGeneral (F := Ideal) (φ₁ := .f32) (φ₂ := .f32) dot_S50000x384_S384x384_S50000x384_1_0_0_1_n_n none l w (ix2 r j)
      = ∑ k : Fin 384, l (ix2 r k) * w (ix2 k j) := by
  simp only [Host.dotGeneral]
  rw [Ideal.dotGeneral_apply, ← Equiv.sum_comp (ValueIdx.contrEquiv1 dot_S50000x384_S384x384_S50000x384_1_0_0_1_n_n 384 rfl rfl).symm]
  refine Finset.sum_congr rfl fun k _ => ?_
  have hk := ValueIdx.contrEquiv1_symm_val dot_S50000x384_S384x384_S50000x384_1_0_0_1_n_n 384 rfl rfl k
  have el : dot_S50000x384_S384x384_S50000x384_1_0_0_1_n_n.lhsIdx (ix2 r j) ((ValueIdx.contrEquiv1 dot_S50000x384_S384x384_S50000x384_1_0_0_1_n_n 384 rfl rfl).symm k) = ix2 r k := funext fun a => Fin.ext (by
    match a with
    | ⟨0, _⟩ => exact lhs_main_v27_0 _ _
    | ⟨1, _⟩ => exact (lhs_main_v27_1 _ _).trans hk)
  have er : dot_S50000x384_S384x384_S50000x384_1_0_0_1_n_n.rhsIdx (ix2 r j) ((ValueIdx.contrEquiv1 dot_S50000x384_S384x384_S50000x384_1_0_0_1_n_n 384 rfl rfl).symm k) = ix2 k j := funext fun a => Fin.ext (by
    match a with
    | ⟨0, _⟩ => exact (rhs_main_v27_0 _ _).trans hk
    | ⟨1, _⟩ => exact rhs_main_v27_1 _ _)
  rw [el, er]

/-- The affine part of a layer as the reference writes it — (aggregated · inverse degree) through the left weights,
    plus the bias, plus the node's own features through the right weights — is `Sage.lin`: the two programs differ only
    in where the bias is added, and addition of extended reals is commutative and associative. The hypotheses say what
    the layer's broadcast inverse degree, sliced weights and broadcast bias read at an index. -/
theorem lin_generic (p : Fin 4) (s x invB BM : FVec Ideal S50000x384 .f32) (WlM WrM : FVec Ideal S384x384 .f32)
    (inv : Sage.PerNode) (Wl Wr : Sage.Weights) (B : Sage.Biases)
    (hinv : ∀ (r : Fin 50000) (k : Fin 384), invB (ix2 r k) = inv (ix1 r))
    (hWl : ∀ k j : Fin 384, WlM (ix2 k j) = Wl (ix3 p k j))
    (hWr : ∀ k j : Fin 384, WrM (ix2 k j) = Wr (ix3 p k j))
    (hB : ∀ (r : Fin 50000) (j : Fin 384), BM (ix2 r j) = B (ix2 p j))
    (r : Fin 50000) (j : Fin 384) :
    addf (addf (Host.dotGeneral (F := Ideal) (φ₁ := .f32) (φ₂ := .f32) dot_S50000x384_S384x384_S50000x384_1_0_0_1_n_n none (mulf s invB) WlM) BM)
        (Host.dotGeneral (F := Ideal) (φ₁ := .f32) (φ₂ := .f32) dot_S50000x384_S384x384_S50000x384_1_0_0_1_n_n none x WrM) (ix2 r j)
      = Sage.lin p s x inv Wl Wr B r j := by
  rw [addf_apply, addf_apply, dot_apply, dot_apply, hB]
  unfold Sage.lin
  rw [add_right_comm]
  congr 2
  · refine Finset.sum_congr rfl fun k _ => ?_
    rw [mulf_apply, hinv, hWl]
  · refine Finset.sum_congr rfl fun k _ => ?_
    rw [hWr]

/-- A hidden layer as the reference writes it (the affine part, then the maximum with a tensor of zeros) is
    `Sage.layerRelu`. -/
theorem relu_generic (p : Fin 4) (s x invB BM Z : FVec Ideal S50000x384 .f32) (WlM WrM : FVec Ideal S384x384 .f32)
    (inv : Sage.PerNode) (Wl Wr : Sage.Weights) (B : Sage.Biases)
    (hinv : ∀ (r : Fin 50000) (k : Fin 384), invB (ix2 r k) = inv (ix1 r))
    (hWl : ∀ k j : Fin 384, WlM (ix2 k j) = Wl (ix3 p k j))
    (hWr : ∀ k j : Fin 384, WrM (ix2 k j) = Wr (ix3 p k j))
    (hB : ∀ (r : Fin 50000) (j : Fin 384), BM (ix2 r j) = B (ix2 p j))
    (hZ : ∀ i, Z i = 0) :
    maximumf (addf (addf (Host.dotGeneral (F := Ideal) (φ₁ := .f32) (φ₂ := .f32) dot_S50000x384_S384x384_S50000x384_1_0_0_1_n_n none (mulf s invB) WlM) BM)
        (Host.dotGeneral (F := Ideal) (φ₁ := .f32) (φ₂ := .f32) dot_S50000x384_S384x384_S50000x384_1_0_0_1_n_n none x WrM)) Z
      = Sage.layerRelu p s x inv Wl Wr B := by
  funext i
  obtain ⟨r, j, rfl⟩ : ∃ (r : Fin 50000) (j : Fin 384), i = ix2 r j := ⟨i 0, i 1, eq_ix2 i⟩
  rw [maximumf_apply, hZ, lin_generic p s x invB BM WlM WrM inv Wl Wr B hinv hWl hWr hB r j]
  rfl

/-- The last layer as the reference writes it (the affine part alone) is `Sage.layerLast`. -/
theorem last_generic (p : Fin 4) (s x invB BM : FVec Ideal S50000x384 .f32) (WlM WrM : FVec Ideal S384x384 .f32)
    (inv : Sage.PerNode) (Wl Wr : Sage.Weights) (B : Sage.Biases)
    (hinv : ∀ (r : Fin 50000) (k : Fin 384), invB (ix2 r k) = inv (ix1 r))
    (hWl : ∀ k j : Fin 384, WlM (ix2 k j) = Wl (ix3 p k j))
    (hWr : ∀ k j : Fin 384, WrM (ix2 k j) = Wr (ix3 p k j))
    (hB : ∀ (r : Fin 50000) (j : Fin 384), BM (ix2 r j) = B (ix2 p j)) :
    addf (addf (Host.dotGeneral (F := Ideal) (φ₁ := .f32) (φ₂ := .f32) dot_S50000x384_S384x384_S50000x384_1_0_0_1_n_n none (mulf s invB) WlM) BM)
        (Host.dotGeneral (F := Ideal) (φ₁ := .f32) (φ₂ := .f32) dot_S50000x384_S384x384_S50000x384_1_0_0_1_n_n none x WrM)
      = Sage.layerLast p s x inv Wl Wr B := by
  funext i
  obtain ⟨r, j, rfl⟩ : ∃ (r : Fin 50000) (j : Fin 384), i = ix2 r j := ⟨i 0, i 1, eq_ix2 i⟩
  rw [lin_generic p s x invB BM WlM WrM inv Wl Wr B hinv hWl hWr hB r j]
  rfl

/-! ## Layer 0: what its broadcast inverse degree, sliced weights and broadcast bias read at an index -/

/-- The inverse degree broadcast along the feature axis reads the per-node value at the row. -/
theorem inv0 (a1 : (⟨S2x400000, .i32⟩ : BufTy).Contents (Elt Ideal)) (r : Fin 50000) (k : Fin 384) :
    val_main_v23 (F := Ideal) a1 (ix2 r k) = val_main_v11 (F := Ideal) a1 (ix1 r) := by
  rw [val_main_v23_apply, val_main_v22_apply]
  exact congrArg (val_main_v11 (F := Ideal) a1) (funext fun a => match a with | ⟨0, _⟩ => rfl)

/-- Slice 0 of the left weights, reshaped to a matrix, reads the stacked weights at `(0, k, j)`. -/
theorem wl0 (a2 : (⟨S4x384x384, .f32⟩ : BufTy).Contents (Elt Ideal)) (k j : Fin 384) :
    val_main_v26 (F := Ideal) a2 (ix2 k j) = a2 (ix3 0 k j) := by
  rw [val_main_v26_apply, val_main_v25_apply]
  refine congrArg a2 (funext fun a => Fin.ext ?_)
  have hk := k.isLt
  have hj := j.isLt
  match a with
  | ⟨0, _⟩ => rfl
  | ⟨1, _⟩ => show (k.val * 384 + j.val) / 384 % 384 = k.val; omega
  | ⟨2, _⟩ => show (k.val * 384 + j.val) % 384 = j.val; omega

/-- Slice 0 of the right weights, reshaped to a matrix, reads the stacked weights at `(0, k, j)`. -/
theorem wr0 (a3 : (⟨S4x384x384, .f32⟩ : BufTy).Contents (Elt Ideal)) (k j : Fin 384) :
    val_main_v34 (F := Ideal) a3 (ix2 k j) = a3 (ix3 0 k j) := by
  rw [val_main_v34_apply, val_main_v33_apply]
  refine congrArg a3 (funext fun a => Fin.ext ?_)
  have hk := k.isLt
  have hj := j.isLt
  match a with
  | ⟨0, _⟩ => rfl
  | ⟨1, _⟩ => show (k.val * 384 + j.val) / 384 % 384 = k.val; omega
  | ⟨2, _⟩ => show (k.val * 384 + j.val) % 384 = j.val; omega

/-- Row 0 of the biases, broadcast along the node axis, reads the stacked biases at `(0, j)`. -/
theorem b0 (a4 : (⟨S4x384, .f32⟩ : BufTy).Contents (Elt Ideal)) (r : Fin 50000) (j : Fin 384) :
    val_main_v31 (F := Ideal) a4 (ix2 r j) = a4 (ix2 0 j) := by
  rw [val_main_v31_apply, val_main_v30_apply, val_main_v29_apply, val_main_v28_apply]
  refine congrArg a4 (funext fun a => Fin.ext ?_)
  have hj := j.isLt
  match a with
  | ⟨0, _⟩ => rfl
  | ⟨1, _⟩ => show j.val % 384 = j.val; omega

/-- The tensor the layer's clamp compares with is zero everywhere. -/
theorem z0 (i : S50000x384.Idx) : val_main_call0_v0 (F := Ideal) i = 0 := by
  rw [val_main_call0_v0_apply, val_main_call0_cst_apply]
  exact Ideal.ofBits_zero_f32

/-- Layer 0 over any aggregated features `s` and any input features `x`. -/
theorem layer0 (s x : FVec Ideal S50000x384 .f32) (a1 : (⟨S2x400000, .i32⟩ : BufTy).Contents (Elt Ideal)) (a2 : (⟨S4x384x384, .f32⟩ : BufTy).Contents (Elt Ideal)) (a3 : (⟨S4x384x384, .f32⟩ : BufTy).Contents (Elt Ideal)) (a4 : (⟨S4x384, .f32⟩ : BufTy).Contents (Elt Ideal)) :
    maximumf (addf (addf (Host.dotGeneral (F := Ideal) (φ₁ := .f32) (φ₂ := .f32) dot_S50000x384_S384x384_S50000x384_1_0_0_1_n_n none (mulf s (val_main_v23 (F := Ideal) a1)) (val_main_v26 (F := Ideal) a2)) (val_main_v31 (F := Ideal) a4))
        (Host.dotGeneral (F := Ideal) (φ₁ := .f32) (φ₂ := .f32) dot_S50000x384_S384x384_S50000x384_1_0_0_1_n_n none x (val_main_v34 (F := Ideal) a3))) (val_main_call0_v0 (F := Ideal))
      = Sage.layerRelu 0 s x (val_main_v11 (F := Ideal) a1) a2 a3 a4 :=
  relu_generic 0 s x _ _ _ _ _ _ a2 a3 a4 (inv0 a1) (wl0 a2) (wr0 a3) (b0 a4) z0

/-! ## Layer 1: what its broadcast inverse degree, sliced weights and broadcast bias read at an index -/

/-- The inverse degree broadcast along the feature axis reads the per-node value at the row. -/
theorem inv1 (a1 : (⟨S2x400000, .i32⟩ : BufTy).Contents (Elt Ideal)) (r : Fin 50000) (k : Fin 384) :
    val_main_v49 (F := Ideal) a1 (ix2 r k) = val_main_v11 (F := Ideal) a1 (ix1 r) := by
  rw [val_main_v49_apply, val_main_v48_apply]
  exact congrArg (val_main_v11 (F := Ideal) a1) (funext fun a => match a with | ⟨0, _⟩ => rfl)

/-- Slice 1 of the left weights, reshaped to a matrix, reads the stacked weights at `(1, k, j)`. -/
theorem wl1 (a2 : (⟨S4x384x384, .f32⟩ : BufTy).Contents (Elt Ideal)) (k j : Fin 384) :
    val_main_v52 (F := Ideal) a2 (ix2 k j) = a2 (ix3 1 k j) := by
  rw [val_main_v52_apply, val_main_v51_apply]
  refine congrArg a2 (funext fun a => Fin.ext ?_)
  have hk := k.isLt
  have hj := j.isLt
  match a with
  | ⟨0, _⟩ => rfl
  | ⟨1, _⟩ => show (k.val * 384 + j.val) / 384 % 384 = k.val; omega
  | ⟨2, _⟩ => show (k.val * 384 + j.val) % 384 = j.val; omega

/-- Slice 1 of the right weights, reshaped to a matrix, reads the stacked weights at `(1, k, j)`. -/
theorem wr1 (a3 : (⟨S4x384x384, .f32⟩ : BufTy).Contents (Elt Ideal)) (k j : Fin 384) :
    val_main_v60 (F := Ideal) a3 (ix2 k j) = a3 (ix3 1 k j) := by
  rw [val_main_v60_apply, val_main_v59_apply]
  refine congrArg a3 (funext fun a => Fin.ext ?_)
  have hk := k.isLt
  have hj := j.isLt
  match a with
  | ⟨0, _⟩ => rfl
  | ⟨1, _⟩ => show (k.val * 384 + j.val) / 384 % 384 = k.val; omega
  | ⟨2, _⟩ => show (k.val * 384 + j.val) % 384 = j.val; omega

/-- Row 1 of the biases, broadcast along the node axis, reads the stacked biases at `(1, j)`. -/
theorem b1 (a4 : (⟨S4x384, .f32⟩ : BufTy).Contents (Elt Ideal)) (r : Fin 50000) (j : Fin 384) :
    val_main_v57 (F := Ideal) a4 (ix2 r j) = a4 (ix2 1 j) := by
  rw [val_main_v57_apply, val_main_v56_apply, val_main_v55_apply, val_main_v54_apply]
  refine congrArg a4 (funext fun a => Fin.ext ?_)
  have hj := j.isLt
  match a with
  | ⟨0, _⟩ => rfl
  | ⟨1, _⟩ => show j.val % 384 = j.val; omega

/-- The tensor the layer's clamp compares with is zero everywhere. -/
theorem z1 (i : S50000x384.Idx) : val_main_call1_v0 (F := Ideal) i = 0 := by
  rw [val_main_call1_v0_apply, val_main_call1_cst_apply]
  exact Ideal.ofBits_zero_f32

/-- Layer 1 over any aggregated features `s` and any input features `x`. -/
theorem layer1 (s x : FVec Ideal S50000x384 .f32) (a1 : (⟨S2x400000, .i32⟩ : BufTy).Contents (Elt Ideal)) (a2 : (⟨S4x384x384, .f32⟩ : BufTy).Contents (Elt Ideal)) (a3 : (⟨S4x384x384, .f32⟩ : BufTy).Contents (Elt Ideal)) (a4 : (⟨S4x384, .f32⟩ : BufTy).Contents (Elt Ideal)) :
    maximumf (addf (addf (Host.dotGeneral (F := Ideal) (φ₁ := .f32) (φ₂ := .f32) dot_S50000x384_S384x384_S50000x384_1_0_0_1_n_n none (mulf s (val_main_v49 (F := Ideal) a1)) (val_main_v52 (F := Ideal) a2)) (val_main_v57 (F := Ideal) a4))
        (Host.dotGeneral (F := Ideal) (φ₁ := .f32) (φ₂ := .f32) dot_S50000x384_S384x384_S50000x384_1_0_0_1_n_n none x (val_main_v60 (F := Ideal) a3))) (val_main_call1_v0 (F := Ideal))
      = Sage.layerRelu 1 s x (val_main_v11 (F := Ideal) a1) a2 a3 a4 :=
  relu_generic 1 s x _ _ _ _ _ _ a2 a3 a4 (inv1 a1) (wl1 a2) (wr1 a3) (b1 a4) z1

/-! ## Layer 2: what its broadcast inverse degree, sliced weights and broadcast bias read at an index -/

/-- The inverse degree broadcast along the feature axis reads the per-node value at the row. -/
theorem inv2 (a1 : (⟨S2x400000, .i32⟩ : BufTy).Contents (Elt Ideal)) (r : Fin 50000) (k : Fin 384) :
    val_main_v75 (F := Ideal) a1 (ix2 r k) = val_main_v11 (F := Ideal) a1 (ix1 r) := by
  rw [val_main_v75_apply, val_main_v74_apply]
  exact congrArg (val_main_v11 (F := Ideal) a1) (funext fun a => match a with | ⟨0, _⟩ => rfl)

/-- Slice 2 of the left weights, reshaped to a matrix, reads the stacked weights at `(2, k, j)`. -/
theorem wl2 (a2 : (⟨S4x384x384, .f32⟩ : BufTy).Contents (Elt Ideal)) (k j : Fin 384) :
    val_main_v78 (F := Ideal) a2 (ix2 k j) = a2 (ix3 2 k j) := by
  rw [val_main_v78_apply, val_main_v77_apply]
  refine congrArg a2 (funext fun a => Fin.ext ?_)
  have hk := k.isLt
  have hj := j.isLt
  match a with
  | ⟨0, _⟩ => rfl
  | ⟨1, _⟩ => show (k.val * 384 + j.val) / 384 % 384 = k.val; omega
  | ⟨2, _⟩ => show (k.val * 384 + j.val) % 384 = j.val; omega

/-- Slice 2 of the right weights, reshaped to a matrix, reads the stacked weights at `(2, k, j)`. -/
theorem wr2 (a3 : (⟨S4x384x384, .f32⟩ : BufTy).Contents (Elt Ideal)) (k j : Fin 384) :
    val_main_v86 (F := Ideal) a3 (ix2 k j) = a3 (ix3 2 k j) := by
  rw [val_main_v86_apply, val_main_v85_apply]
  refine congrArg a3 (funext fun a => Fin.ext ?_)
  have hk := k.isLt
  have hj := j.isLt
  match a with
  | ⟨0, _⟩ => rfl
  | ⟨1, _⟩ => show (k.val * 384 + j.val) / 384 % 384 = k.val; omega
  | ⟨2, _⟩ => show (k.val * 384 + j.val) % 384 = j.val; omega

/-- Row 2 of the biases, broadcast along the node axis, reads the stacked biases at `(2, j)`. -/
theorem b2 (a4 : (⟨S4x384, .f32⟩ : BufTy).Contents (Elt Ideal)) (r : Fin 50000) (j : Fin 384) :
    val_main_v83 (F := Ideal) a4 (ix2 r j) = a4 (ix2 2 j) := by
  rw [val_main_v83_apply, val_main_v82_apply, val_main_v81_apply, val_main_v80_apply]
  refine congrArg a4 (funext fun a => Fin.ext ?_)
  have hj := j.isLt
  match a with
  | ⟨0, _⟩ => rfl
  | ⟨1, _⟩ => show j.val % 384 = j.val; omega

/-- The tensor the layer's clamp compares with is zero everywhere. -/
theorem z2 (i : S50000x384.Idx) : val_main_call2_v0 (F := Ideal) i = 0 := by
  rw [val_main_call2_v0_apply, val_main_call2_cst_apply]
  exact Ideal.ofBits_zero_f32

/-- Layer 2 over any aggregated features `s` and any input features `x`. -/
theorem layer2 (s x : FVec Ideal S50000x384 .f32) (a1 : (⟨S2x400000, .i32⟩ : BufTy).Contents (Elt Ideal)) (a2 : (⟨S4x384x384, .f32⟩ : BufTy).Contents (Elt Ideal)) (a3 : (⟨S4x384x384, .f32⟩ : BufTy).Contents (Elt Ideal)) (a4 : (⟨S4x384, .f32⟩ : BufTy).Contents (Elt Ideal)) :
    maximumf (addf (addf (Host.dotGeneral (F := Ideal) (φ₁ := .f32) (φ₂ := .f32) dot_S50000x384_S384x384_S50000x384_1_0_0_1_n_n none (mulf s (val_main_v75 (F := Ideal) a1)) (val_main_v78 (F := Ideal) a2)) (val_main_v83 (F := Ideal) a4))
        (Host.dotGeneral (F := Ideal) (φ₁ := .f32) (φ₂ := .f32) dot_S50000x384_S384x384_S50000x384_1_0_0_1_n_n none x (val_main_v86 (F := Ideal) a3))) (val_main_call2_v0 (F := Ideal))
      = Sage.layerRelu 2 s x (val_main_v11 (F := Ideal) a1) a2 a3 a4 :=
  relu_generic 2 s x _ _ _ _ _ _ a2 a3 a4 (inv2 a1) (wl2 a2) (wr2 a3) (b2 a4) z2

/-! ## Layer 3: what its broadcast inverse degree, sliced weights and broadcast bias read at an index -/

/-- The inverse degree broadcast along the feature axis reads the per-node value at the row. -/
theorem inv3 (a1 : (⟨S2x400000, .i32⟩ : BufTy).Contents (Elt Ideal)) (r : Fin 50000) (k : Fin 384) :
    val_main_v101 (F := Ideal) a1 (ix2 r k) = val_main_v11 (F := Ideal) a1 (ix1 r) := by
  rw [val_main_v101_apply, val_main_v100_apply]
  exact congrArg (val_main_v11 (F := Ideal) a1) (funext fun a => match a with | ⟨0, _⟩ => rfl)

/-- Slice 3 of the left weights, reshaped to a matrix, reads the stacked weights at `(3, k, j)`. -/
theorem wl3 (a2 : (⟨S4x384x384, .f32⟩ : BufTy).Contents (Elt Ideal)) (k j : Fin 384) :
    val_main_v104 (F := Ideal) a2 (ix2 k j) = a2 (ix3 3 k j) := by
  rw [val_main_v104_apply, val_main_v103_apply]
  refine congrArg a2 (funext fun a => Fin.ext ?_)
  have hk := k.isLt
  have hj := j.isLt
  match a with
  | ⟨0, _⟩ => rfl
  | ⟨1, _⟩ => show (k.val * 384 + j.val) / 384 % 384 = k.val; omega
  | ⟨2, _⟩ => show (k.val * 384 + j.val) % 384 = j.val; omega

/-- Slice 3 of the right weights, reshaped to a matrix, reads the stacked weights at `(3, k, j)`. -/
theorem wr3 (a3 : (⟨S4x384x384, .f32⟩ : BufTy).Contents (Elt Ideal)) (k j : Fin 384) :
    val_main_v112 (F := Ideal) a3 (ix2 k j) = a3 (ix3 3 k j) := by
  rw [val_main_v112_apply, val_main_v111_apply]
  refine congrArg a3 (funext fun a => Fin.ext ?_)
  have hk := k.isLt
  have hj := j.isLt
  match a with
  | ⟨0, _⟩ => rfl
  | ⟨1, _⟩ => show (k.val * 384 + j.val) / 384 % 384 = k.val; omega
  | ⟨2, _⟩ => show (k.val * 384 + j.val) % 384 = j.val; omega

/-- Row 3 of the biases, broadcast along the node axis, reads the stacked biases at `(3, j)`. -/
theorem b3 (a4 : (⟨S4x384, .f32⟩ : BufTy).Contents (Elt Ideal)) (r : Fin 50000) (j : Fin 384) :
    val_main_v109 (F := Ideal) a4 (ix2 r j) = a4 (ix2 3 j) := by
  rw [val_main_v109_apply, val_main_v108_apply, val_main_v107_apply, val_main_v106_apply]
  refine congrArg a4 (funext fun a => Fin.ext ?_)
  have hj := j.isLt
  match a with
  | ⟨0, _⟩ => rfl
  | ⟨1, _⟩ => show j.val % 384 = j.val; omega

/-- Layer 3 over any aggregated features `s` and any input features `x`. -/
theorem layer3 (s x : FVec Ideal S50000x384 .f32) (a1 : (⟨S2x400000, .i32⟩ : BufTy).Contents (Elt Ideal)) (a2 : (⟨S4x384x384, .f32⟩ : BufTy).Contents (Elt Ideal)) (a3 : (⟨S4x384x384, .f32⟩ : BufTy).Contents (Elt Ideal)) (a4 : (⟨S4x384, .f32⟩ : BufTy).Contents (Elt Ideal)) :
    addf (addf (Host.dotGeneral (F := Ideal) (φ₁ := .f32) (φ₂ := .f32) dot_S50000x384_S384x384_S50000x384_1_0_0_1_n_n none (mulf s (val_main_v101 (F := Ideal) a1)) (val_main_v104 (F := Ideal) a2)) (val_main_v109 (F := Ideal) a4))
        (Host.dotGeneral (F := Ideal) (φ₁ := .f32) (φ₂ := .f32) dot_S50000x384_S384x384_S50000x384_1_0_0_1_n_n none x (val_main_v112 (F := Ideal) a3))
      = Sage.layerLast 3 s x (val_main_v11 (F := Ideal) a1) a2 a3 a4 :=
  last_generic 3 s x _ _ _ _ (val_main_v11 (F := Ideal) a1) a2 a3 a4 (inv3 a1) (wl3 a2) (wr3 a3) (b3 a4)

end Cert.ReferenceIdeal.RefValue

end
-- ==== Proof.RefNet.lean ====
/-
  The reference program's result is the specification's four-layer network.

  Each layer of the reference is one instance of the per-layer lemma: its aggregated features are the gather along the
  edges' (wrapped) sources followed by the scatter-add along their targets, applied to the previous layer's result;
  the later layers recompute the same index tensors, so their aggregation is the first layer's by unfolding.
-/
import proofs.«126454_j3831110828324_2_alg».proof.Proof.Gen.ReferenceIdeal.Read
import proofs.«126454_j3831110828324_2_alg».proof.Proof.Spec
import proofs.«126454_j3831110828324_2_alg».proof.Proof.RefLayer

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The neighbour sum as the reference's first layer computes it: gather rows of x at the (wrapped) source indices, scatter-add them at the target indices into zeros. -/
def aggR (a1 : (⟨S2x400000, .i32⟩ : BufTy).Contents (Elt Ideal)) (x : (⟨S50000x384, .f32⟩ : BufTy).Contents (Elt Ideal)) : (⟨S50000x384, .f32⟩ : BufTy).Contents (Elt Ideal) :=
  Host.scatterAdd (F := Ideal) (φ := .f32) scatter_S50000x384_S400000x1_S400000x384_1_0_0_1 (val_main_v19 (F := Ideal)) (val_main_v20 (F := Ideal) a1)
    (Host.gather gather_S50000x384_S400000x1_S400000x384_1_0_n_n_0_1_1384 x (val_main_v17 (F := Ideal) a1))

/-- The first layer's result is the specification's layer 0 on the input features. -/
theorem ref_l0 (a0 : (⟨S50000x384, .f32⟩ : BufTy).Contents (Elt Ideal)) (a1 : (⟨S2x400000, .i32⟩ : BufTy).Contents (Elt Ideal)) (a2 a3 : (⟨S4x384x384, .f32⟩ : BufTy).Contents (Elt Ideal)) (a4 : (⟨S4x384, .f32⟩ : BufTy).Contents (Elt Ideal)) :
    val_main_v37 (F := Ideal) a0 a1 a2 a3 a4 = Sage.layerRelu 0 (aggR a1 a0) a0 (val_main_v11 (F := Ideal) a1) a2 a3 a4 := by
  unfold val_main_v37 val_main_v36 val_main_v32 val_main_v27 val_main_v24 val_main_v21 val_main_v18 val_main_v35
  exact layer0 (aggR a1 a0) a0 a1 a2 a3 a4

/-- The second layer's result is the specification's layer 1 on the first layer's result. -/
theorem ref_l1 (a0 : (⟨S50000x384, .f32⟩ : BufTy).Contents (Elt Ideal)) (a1 : (⟨S2x400000, .i32⟩ : BufTy).Contents (Elt Ideal)) (a2 a3 : (⟨S4x384x384, .f32⟩ : BufTy).Contents (Elt Ideal)) (a4 : (⟨S4x384, .f32⟩ : BufTy).Contents (Elt Ideal)) :
    val_main_v63 (F := Ideal) a0 a1 a2 a3 a4 = Sage.layerRelu 1 (aggR a1 (val_main_v37 (F := Ideal) a0 a1 a2 a3 a4)) (val_main_v37 (F := Ideal) a0 a1 a2 a3 a4) (val_main_v11 (F := Ideal) a1) a2 a3 a4 := by
  unfold val_main_v63 val_main_v62 val_main_v58 val_main_v53 val_main_v50 val_main_v47 val_main_v44 val_main_v61
  generalize val_main_v37 (F := Ideal) a0 a1 a2 a3 a4 = x
  exact layer1 (aggR a1 x) x a1 a2 a3 a4

/-- The third layer's result is the specification's layer 2 on the second layer's result. -/
theorem ref_l2 (a0 : (⟨S50000x384, .f32⟩ : BufTy).Contents (Elt Ideal)) (a1 : (⟨S2x400000, .i32⟩ : BufTy).Contents (Elt Ideal)) (a2 a3 : (⟨S4x384x384, .f32⟩ : BufTy).Contents (Elt Ideal)) (a4 : (⟨S4x384, .f32⟩ : BufTy).Contents (Elt Ideal)) :
    val_main_v89 (F := Ideal) a0 a1 a2 a3 a4 = Sage.layerRelu 2 (aggR a1 (val_main_v63 (F := Ideal) a0 a1 a2 a3 a4)) (val_main_v63 (F := Ideal) a0 a1 a2 a3 a4) (val_main_v11 (F := Ideal) a1) a2 a3 a4 := by
  unfold val_main_v89 val_main_v88 val_main_v84 val_main_v79 val_main_v76 val_main_v73 val_main_v70 val_main_v87
  generalize val_main_v63 (F := Ideal) a0 a1 a2 a3 a4 = x
  exact layer2 (aggR a1 x) x a1 a2 a3 a4

/-- The last layer's result is the specification's layer 3 on the third layer's result. -/
theorem ref_l3 (a0 : (⟨S50000x384, .f32⟩ : BufTy).Contents (Elt Ideal)) (a1 : (⟨S2x400000, .i32⟩ : BufTy).Contents (Elt Ideal)) (a2 a3 : (⟨S4x384x384, .f32⟩ : BufTy).Contents (Elt Ideal)) (a4 : (⟨S4x384, .f32⟩ : BufTy).Contents (Elt Ideal)) :
    val_main_v114 (F := Ideal) a0 a1 a2 a3 a4 = Sage.layerLast 3 (aggR a1 (val_main_v89 (F := Ideal) a0 a1 a2 a3 a4)) (val_main_v89 (F := Ideal) a0 a1 a2 a3 a4) (val_main_v11 (F := Ideal) a1) a2 a3 a4 := by
  unfold val_main_v114 val_main_v110 val_main_v105 val_main_v102 val_main_v99 val_main_v96 val_main_v113
  generalize val_main_v89 (F := Ideal) a0 a1 a2 a3 a4 = x
  exact layer3 (aggR a1 x) x a1 a2 a3 a4

/-- The reference's result is the four specified layers in a row. -/
theorem ref_net (a0 : (⟨S50000x384, .f32⟩ : BufTy).Contents (Elt Ideal)) (a1 : (⟨S2x400000, .i32⟩ : BufTy).Contents (Elt Ideal)) (a2 a3 : (⟨S4x384x384, .f32⟩ : BufTy).Contents (Elt Ideal)) (a4 : (⟨S4x384, .f32⟩ : BufTy).Contents (Elt Ideal)) :
    val_main_v114 (F := Ideal) a0 a1 a2 a3 a4 = Sage.net (aggR a1) (val_main_v11 (F := Ideal) a1) a0 a2 a3 a4 := by
  have h4 := ref_l3 a0 a1 a2 a3 a4
  rw [ref_l2 a0 a1 a2 a3 a4, ref_l1 a0 a1 a2 a3 a4, ref_l0 a0 a1 a2 a3 a4] at h4
  exact h4

end Cert.ReferenceIdeal.RefValue

end
-- ==== Proof.lean ====
/-
  Kernel and reference compute the same four-layer GraphSAGE network (mean aggregation) on the extended reals.

  Both programs aggregate the same way on the host — gather the current features' rows along the edges' sources,
  scatter-add them along the targets — and share the inverse clamped in-degree; neither is ever opened.  A layer is
      (s · inv) Wl[p] + x Wr[p] + b[p]        (s the neighbour sum of x; clamped below at zero in layers 0, 1, 2).
  The kernel computes it block by block, ten blocks of 5000 rows per launch, with the weights rounded to bf16 (the
  identity on the extended reals) and the bias added last; the reference computes it whole, adding the bias before
  the second product.  Addition of extended reals is commutative and associative, so the two agree entry by entry;
  no finiteness of the inputs is used.  The idealization rewrote nothing, so it is preserved trivially.
-/
import proofs.«126454_j3831110828324_2_alg».proof.Defs
import proofs.«126454_j3831110828324_2_alg».proof.Proof.Gen.Kernel
import proofs.«126454_j3831110828324_2_alg».proof.Proof.Gen.Kernel.Skeleton
import proofs.«126454_j3831110828324_2_alg».proof.Proof.Gen.Kernel.Launch
import proofs.«126454_j3831110828324_2_alg».proof.Proof.Gen.Kernel.Points
import proofs.«126454_j3831110828324_2_alg».proof.Proof.Gen.Kernel.Frame
import proofs.«126454_j3831110828324_2_alg».proof.Proof.Gen.KernelIdeal
import proofs.«126454_j3831110828324_2_alg».proof.Proof.Gen.KernelIdeal.Skeleton
import proofs.«126454_j3831110828324_2_alg».proof.Proof.Gen.KernelIdeal.Launch
import proofs.«126454_j3831110828324_2_alg».proof.Proof.Gen.KernelIdeal.Points
import proofs.«126454_j3831110828324_2_alg».proof.Proof.Gen.KernelIdeal.Frame
import proofs.«126454_j3831110828324_2_alg».proof.Proof.Gen.ReferenceIdeal
import proofs.«126454_j3831110828324_2_alg».proof.Proof.Gen.Pre_finite_inputs
import proofs.«126454_j3831110828324_2_alg».proof.Proof.Gen.ReferenceIdeal.Run
import proofs.«126454_j3831110828324_2_alg».proof.Proof.Gen.ReferenceIdeal.Read
import proofs.«126454_j3831110828324_2_alg».proof.Proof.KernelRun
import proofs.«126454_j3831110828324_2_alg».proof.Proof.KChain
import proofs.«126454_j3831110828324_2_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The two programs take the neighbour sum by the same host operations. -/
theorem agg_eq (e : Cert.KernelIdeal.HostVal.Edges) :
    Cert.KernelIdeal.HostVal.aggOf (Cert.KernelIdeal.HostVal.src e) (Cert.KernelIdeal.HostVal.dst e)
      = Cert.ReferenceIdeal.RefValue.aggR e := by
  funext x
  unfold Cert.KernelIdeal.HostVal.aggOf Cert.KernelIdeal.HostVal.src Cert.KernelIdeal.HostVal.dst Cert.ReferenceIdeal.RefValue.aggR
    Cert.ReferenceIdeal.Read.val_main_v19 Cert.ReferenceIdeal.Read.val_main_cst_4 Cert.ReferenceIdeal.Read.val_main_v20
    Cert.ReferenceIdeal.Read.val_main_v3 Cert.ReferenceIdeal.Read.val_main_v2 Cert.ReferenceIdeal.Read.val_main_v17
    Cert.ReferenceIdeal.Read.val_main_v16 Cert.ReferenceIdeal.Read.val_main_v15 Cert.ReferenceIdeal.Read.val_main_v14
    Cert.ReferenceIdeal.Read.val_main_c_3 Cert.ReferenceIdeal.Read.val_main_v13 Cert.ReferenceIdeal.Read.val_main_v12
    Cert.ReferenceIdeal.Read.val_main_c Cert.ReferenceIdeal.Read.val_main_v1 Cert.ReferenceIdeal.Read.val_main_v0
  rfl

/-- … and the inverse clamped in-degree by the same host operations. -/
theorem inv_eq (e : Cert.KernelIdeal.HostVal.Edges) :
    Cert.KernelIdeal.HostVal.invOf (Cert.KernelIdeal.HostVal.dst e) = Cert.ReferenceIdeal.Read.val_main_v11 (F := Ideal) e := by
  unfold Cert.KernelIdeal.HostVal.invOf Cert.KernelIdeal.HostVal.dst
    Cert.ReferenceIdeal.Read.val_main_v11 Cert.ReferenceIdeal.Read.val_main_v10 Cert.ReferenceIdeal.Read.val_main_cst_2
    Cert.ReferenceIdeal.Read.val_main_v9 Cert.ReferenceIdeal.Read.val_main_v8 Cert.ReferenceIdeal.Read.val_main_cst_1
    Cert.ReferenceIdeal.Read.val_main_v7 Cert.ReferenceIdeal.Read.val_main_v6 Cert.ReferenceIdeal.Read.val_main_v5
    Cert.ReferenceIdeal.Read.val_main_cst_0 Cert.ReferenceIdeal.Read.val_main_v4 Cert.ReferenceIdeal.Read.val_main_cst
    Cert.ReferenceIdeal.Read.val_main_v3 Cert.ReferenceIdeal.Read.val_main_v2
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Sage.net (Cert.KernelIdeal.Chain.AGG m c) (Cert.KernelIdeal.Chain.INV m c) (Cert.KernelIdeal.Chain.a0 m c)
    (Cert.KernelIdeal.Chain.a2 m c) (Cert.KernelIdeal.Chain.a3 m c) (Cert.KernelIdeal.Chain.a4 m c), ?_, ?_⟩
  · exact (θ_run Cert.KernelIdeal.defs _ _).mono
      (fun r h c => ⟨(h c).1.trans (Cert.KernelIdeal.Chain.result m ρ c), (h c).2⟩)
      (Cert.KernelIdeal.Gen.run_named (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v114_eq, Cert.ReferenceIdeal.RefValue.ref_net,
      (hagree c).1, (hagree c).2.1, (hagree c).2.2.1, (hagree c).2.2.2.1, (hagree c).2.2.2.2]
    show _ = Sage.net (Cert.KernelIdeal.Chain.AGG m c) (Cert.KernelIdeal.Chain.INV m c) (Cert.KernelIdeal.Chain.a0 m c)
      (Cert.KernelIdeal.Chain.a2 m c) (Cert.KernelIdeal.Chain.a3 m c) (Cert.KernelIdeal.Chain.a4 m c)
    unfold Cert.KernelIdeal.Chain.AGG Cert.KernelIdeal.Chain.INV
    rw [agg_eq, inv_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
